-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S2x600000 : Shape := ⟨2, ![2, 600000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128x128 .f32) (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : FVec F S128x128 .f32) (main_arg2 : FVec F S128 .f32) (main_arg3 : FVec F S128x128 .f32) (main_arg4 : FVec F S128 .f32) (main_arg5 : FVec F S128x128 .f32) (main_arg6 : FVec F S128 .f32) (main_arg7 : IVec S2x600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S50000x128 : Shape := ⟨2, ![50000, 128]⟩
abbrev S128x128 : Shape := ⟨2, ![128, 128]⟩
abbrev S128 : Shape := ⟨1, ![128]⟩
abbrev S2x600000 : Shape := ⟨2, ![2, 600000]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S5000x128 : Shape := ⟨2, ![5000, 128]⟩
abbrev S650000x128 : Shape := ⟨2, ![650000, 128]⟩
abbrev S1x128 : Shape := ⟨2, ![1, 128]⟩

abbrev nBuf : Space → Nat
  | .hbm => 102
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S2x600000, .i32⟩
  | .hbm, ⟨8, _⟩ => ⟨S50000, .i32⟩
  | .hbm, ⟨9, _⟩ => ⟨S1x600000, .i32⟩
  | .hbm, ⟨10, _⟩ => ⟨S600000, .i32⟩
  | .hbm, ⟨11, _⟩ => ⟨S650000, .i32⟩
  | .hbm, ⟨12, _⟩ => ⟨S1x600000, .i32⟩
  | .hbm, ⟨13, _⟩ => ⟨S600000, .i32⟩
  | .hbm, ⟨14, _⟩ => ⟨S650000, .i32⟩
  | .hbm, ⟨15, _⟩ => ⟨S_, .f32⟩
  | .hbm, ⟨16, _⟩ => ⟨S650000, .f32⟩
  | .hbm, ⟨17, _⟩ => ⟨S_, .f32⟩
  | .hbm, ⟨18, _⟩ => ⟨S50000, .f32⟩
  | .hbm, ⟨19, _⟩ => ⟨S650000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S650000, .i32⟩
  | .hbm, ⟨31, _⟩ => ⟨S650000, .i1⟩
  | .hbm, ⟨32, _⟩ => ⟨S_, .i32⟩
  | .hbm, ⟨33, _⟩ => ⟨S650000, .i32⟩
  | .hbm, ⟨34, _⟩ => ⟨S650000, .i32⟩
  | .hbm, ⟨35, _⟩ => ⟨S650000, .i32⟩
  | .hbm, ⟨36, _⟩ => ⟨S650000x1, .i32⟩
  | .hbm, ⟨37, _⟩ => ⟨S650000, .f32⟩
  | .hbm, ⟨38, _⟩ => ⟨S_, .i32⟩
  | .hbm, ⟨39, _⟩ => ⟨S650000, .i32⟩
  | .hbm, ⟨40, _⟩ => ⟨S650000, .i1⟩
  | .hbm, ⟨41, _⟩ => ⟨S_, .i32⟩
  | .hbm, ⟨42, _⟩ => ⟨S650000, .i32⟩
  | .hbm, ⟨43, _⟩ => ⟨S650000, .i32⟩
  | .hbm, ⟨44, _⟩ => ⟨S650000, .i32⟩
  | .hbm, ⟨45, _⟩ => ⟨S650000x1, .i32⟩
  | .hbm, ⟨46, _⟩ => ⟨S650000, .f32⟩
  | .hbm, ⟨47, _⟩ => ⟨S650000, .f32⟩
  | .hbm, ⟨48, _⟩ => ⟨S50000x128, .f32⟩
  | .hbm, ⟨49, _⟩ => ⟨S_, .i32⟩
  | .hbm, ⟨50, _⟩ => ⟨S650000, .i32⟩
  | .hbm, ⟨51, _⟩ => ⟨S650000, .i1⟩
  | .hbm, ⟨52, _⟩ => ⟨S_, .i32⟩
  | .hbm, ⟨53, _⟩ => ⟨S650000, .i32⟩
  | .hbm, ⟨54, _⟩ => ⟨S650000, .i32⟩
  | .hbm, ⟨55, _⟩ => ⟨S650000, .i32⟩
  | .hbm, ⟨56, _⟩ => ⟨S650000x1, .i32⟩
  | .hbm, ⟨57, _⟩ => ⟨S650000x128, .f32⟩
  | .hbm, ⟨58, _⟩ => ⟨S650000x1, .f32⟩
  | .hbm, ⟨59, _⟩ => ⟨S650000x128, .f32⟩
  | .hbm, ⟨60, _⟩ => ⟨S650000x128, .f32⟩
  | .hbm, ⟨61, _⟩ => ⟨S_, .f32⟩
  | .hbm, ⟨62, _⟩ => ⟨S50000x128, .f32⟩
  | .hbm, ⟨63, _⟩ => ⟨S650000x1, .i32⟩
  | .hbm, ⟨64, _⟩ => ⟨S50000x128, .f32⟩
  | .hbm, ⟨65, _⟩ => ⟨S50000x128, .f32⟩
  | .hbm, ⟨66, _⟩ => ⟨S50000x128, .f32⟩
  | .hbm, ⟨67, _⟩ => ⟨S_, .i32⟩
  | .hbm, ⟨68, _⟩ => ⟨S650000, .i32⟩
  | .hbm, ⟨69, _⟩ => ⟨S650000, .i1⟩
  | .hbm, ⟨70, _⟩ => ⟨S_, .i32⟩
  | .hbm, ⟨71, _⟩ => ⟨S650000, .i32⟩
  | .hbm, ⟨72, _⟩ => ⟨S650000, .i32⟩
  | .hbm, ⟨73, _⟩ => ⟨S650000, .i32⟩
  | .hbm, ⟨74, _⟩ => ⟨S650000x1, .i32⟩
  | .hbm, ⟨75, _⟩ => ⟨S650000x128, .f32⟩
  | .hbm, ⟨76, _⟩ => ⟨S650000x1, .f32⟩
  | .hbm, ⟨77, _⟩ => ⟨S650000x128, .f32⟩
  | .hbm, ⟨78, _⟩ => ⟨S650000x128, .f32⟩
  | .hbm, ⟨79, _⟩ => ⟨S_, .f32⟩
  | .hbm, ⟨80, _⟩ => ⟨S50000x128, .f32⟩
  | .hbm, ⟨81, _⟩ => ⟨S650000x1, .i32⟩
  | .hbm, ⟨82, _⟩ => ⟨S50000x128, .f32⟩
  | .hbm, ⟨83, _⟩ => ⟨S50000x128, .f32⟩
  | .hbm, ⟨84, _⟩ => ⟨S50000x128, .f32⟩
  | .hbm, ⟨85, _⟩ => ⟨S_, .i32⟩
  | .hbm, ⟨86, _⟩ => ⟨S650000, .i32⟩
  | .hbm, ⟨87, _⟩ => ⟨S650000, .i1⟩
  | .hbm, ⟨88, _⟩ => ⟨S_, .i32⟩
  | .hbm, ⟨89, _⟩ => ⟨S650000, .i32⟩
  | .hbm, ⟨90, _⟩ => ⟨S650000, .i32⟩
  | .hbm, ⟨91, _⟩ => ⟨S650000, .i32⟩
  | .hbm, ⟨92, _⟩ => ⟨S650000x1, .i32⟩
  | .hbm, ⟨93, _⟩ => ⟨S650000x128, .f32⟩
  | .hbm, ⟨94, _⟩ => ⟨S650000x1, .f32⟩
  | .hbm, ⟨95, _⟩ => ⟨S650000x128, .f32⟩
  | .hbm, ⟨96, _⟩ => ⟨S650000x128, .f32⟩
  | .hbm, ⟨97, _⟩ => ⟨S_, .f32⟩
  | .hbm, ⟨98, _⟩ => ⟨S50000x128, .f32⟩
  | .hbm, ⟨99, _⟩ => ⟨S650000x1, .i32⟩
  | .hbm, ⟨100, _⟩ => ⟨S50000x128, .f32⟩
  | .hbm, ⟨101, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S128, .f32⟩
  | .local _ .vmem, ⟨28, _⟩ => ⟨S5000x128, .f32⟩
  | .local _ .vmem, ⟨29, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_c_12 : Ref sig .tc := ⟨.hbm, 85, rfl⟩
abbrev main_v61 : Ref sig .tc := ⟨.hbm, 86, rfl⟩
abbrev main_v62 : Ref sig .tc := ⟨.hbm, 87, rfl⟩
abbrev main_c_13 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_14 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S5000x128_S128x128_S5000x128_1_0_0_1_n_n_wf : DotDims.WF S5000x128 S128x128 S5000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128.size a ≤ S128.size a
  hwx3_1 : ∀ i : grid3.Coords, EltTy.bits .f32 = 32 ∨ (Rect.block (s := S128) S128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128.size a ≤ S128.size a
  hwx5_1 : ∀ i : grid5.Coords, EltTy.bits .f32 = 32 ∨ (Rect.block (s := S128) S128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S50000x128.size a
  hwx5_2 : ∀ i : grid5.Coords, EltTy.bits .f32 = 32 ∨ (Rect.block (s := S50000x128) S5000x128.size (cc5_transform_2 i) (hinb5_2 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v59) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v59) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v60) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v73) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg6) S128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v74) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S2x600000 : Shape := ⟨2, ![2, 600000]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩

abbrev nBuf : Space → Nat
  | .hbm => 117
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S2x600000, .i32⟩
  | .hbm, ⟨8, _⟩ => ⟨S50000, .i32⟩
  | .hbm, ⟨9, _⟩ => ⟨S1x600000, .i32⟩
  | .hbm, ⟨10, _⟩ => ⟨S600000, .i32⟩
  | .hbm, ⟨11, _⟩ => ⟨S650000, .i32⟩
  | .hbm, ⟨12, _⟩ => ⟨S1x600000, .i32⟩
  | .hbm, ⟨13, _⟩ => ⟨S600000, .i32⟩
  | .hbm, ⟨14, _⟩ => ⟨S650000, .i32⟩
  | .hbm, ⟨15, _⟩ => ⟨S_, .f32⟩
  | .hbm, ⟨16, _⟩ => ⟨S650000, .f32⟩
  | .hbm, ⟨17, _⟩ => ⟨S_, .f32⟩
  | .hbm, ⟨18, _⟩ => ⟨S50000, .f32⟩
  | .hbm, ⟨19, _⟩ => ⟨S650000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S650000, .i32⟩
  | .hbm, ⟨31, _⟩ => ⟨S650000, .i1⟩
  | .hbm, ⟨32, _⟩ => ⟨S_, .i32⟩
  | .hbm, ⟨33, _⟩ => ⟨S650000, .i32⟩
  | .hbm, ⟨34, _⟩ => ⟨S650000, .i32⟩
  | .hbm, ⟨35, _⟩ => ⟨S650000, .i32⟩
  | .hbm, ⟨36, _⟩ => ⟨S650000x1, .i32⟩
  | .hbm, ⟨37, _⟩ => ⟨S650000, .f32⟩
  | .hbm, ⟨38, _⟩ => ⟨S_, .i32⟩
  | .hbm, ⟨39, _⟩ => ⟨S650000, .i32⟩
  | .hbm, ⟨40, _⟩ => ⟨S650000, .i1⟩
  | .hbm, ⟨41, _⟩ => ⟨S_, .i32⟩
  | .hbm, ⟨42, _⟩ => ⟨S650000, .i32⟩
  | .hbm, ⟨43, _⟩ => ⟨S650000, .i32⟩
  | .hbm, ⟨44, _⟩ => ⟨S650000, .i32⟩
  | .hbm, ⟨45, _⟩ => ⟨S650000x1, .i32⟩
  | .hbm, ⟨46, _⟩ => ⟨S650000, .f32⟩
  | .hbm, ⟨47, _⟩ => ⟨S650000, .f32⟩
  | .hbm, ⟨48, _⟩ => ⟨S50000x128, .f32⟩
  | .hbm, ⟨49, _⟩ => ⟨S_, .i32⟩
  | .hbm, ⟨50, _⟩ => ⟨S650000, .i32⟩
  | .hbm, ⟨51, _⟩ => ⟨S650000, .i1⟩
  | .hbm, ⟨52, _⟩ => ⟨S_, .i32⟩
  | .hbm, ⟨53, _⟩ => ⟨S650000, .i32⟩
  | .hbm, ⟨54, _⟩ => ⟨S650000, .i32⟩
  | .hbm, ⟨55, _⟩ => ⟨S650000, .i32⟩
  | .hbm, ⟨56, _⟩ => ⟨S650000x1, .i32⟩
  | .hbm, ⟨57, _⟩ => ⟨S650000x128, .f32⟩
  | .hbm, ⟨58, _⟩ => ⟨S650000x1, .f32⟩
  | .hbm, ⟨59, _⟩ => ⟨S650000x128, .f32⟩
  | .hbm, ⟨60, _⟩ => ⟨S650000x128, .f32⟩
  | .hbm, ⟨61, _⟩ => ⟨S_, .f32⟩
  | .hbm, ⟨62, _⟩ => ⟨S50000x128, .f32⟩
  | .hbm, ⟨63, _⟩ => ⟨S650000x1, .i32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S_, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S_, .i32⟩
  | .hbm, ⟨73, _⟩ => ⟨S650000, .i32⟩
  | .hbm, ⟨74, _⟩ => ⟨S650000, .i1⟩
  | .hbm, ⟨75, _⟩ => ⟨S_, .i32⟩
  | .hbm, ⟨76, _⟩ => ⟨S650000, .i32⟩
  | .hbm, ⟨77, _⟩ => ⟨S650000, .i32⟩
  | .hbm, ⟨78, _⟩ => ⟨S650000, .i32⟩
  | .hbm, ⟨79, _⟩ => ⟨S650000x1, .i32⟩
  | .hbm, ⟨80, _⟩ => ⟨S650000x128, .f32⟩
  | .hbm, ⟨81, _⟩ => ⟨S650000x1, .f32⟩
  | .hbm, ⟨82, _⟩ => ⟨S650000x128, .f32⟩
  | .hbm, ⟨83, _⟩ => ⟨S650000x128, .f32⟩
  | .hbm, ⟨84, _⟩ => ⟨S_, .f32⟩
  | .hbm, ⟨85, _⟩ => ⟨S50000x128, .f32⟩
  | .hbm, ⟨86, _⟩ => ⟨S650000x1, .i32⟩
  | .hbm, ⟨87, _⟩ => ⟨S50000x128, .f32⟩
  | .hbm, ⟨88, _⟩ => ⟨S1x128, .f32⟩
  | .hbm, ⟨89, _⟩ => ⟨S50000x128, .f32⟩
  | .hbm, ⟨90, _⟩ => ⟨S50000x128, .f32⟩
  | .hbm, ⟨91, _⟩ => ⟨S_, .f32⟩
  | .hbm, ⟨92, _⟩ => ⟨S50000x128, .f32⟩
  | .hbm, ⟨93, _⟩ => ⟨S50000x128, .f32⟩
  | .hbm, ⟨94, _⟩ => ⟨S50000x128, .f32⟩
  | .hbm, ⟨95, _⟩ => ⟨S_, .i32⟩
  | .hbm, ⟨96, _⟩ => ⟨S650000, .i32⟩
  | .hbm, ⟨97, _⟩ => ⟨S650000, .i1⟩
  | .hbm, ⟨98, _⟩ => ⟨S_, .i32⟩
  | .hbm, ⟨99, _⟩ => ⟨S650000, .i32⟩
  | .hbm, ⟨100, _⟩ => ⟨S650000, .i32⟩
  | .hbm, ⟨101, _⟩ => ⟨S650000, .i32⟩
  | .hbm, ⟨102, _⟩ => ⟨S650000x1, .i32⟩
  | .hbm, ⟨103, _⟩ => ⟨S650000x128, .f32⟩
  | .hbm, ⟨104, _⟩ => ⟨S650000x1, .f32⟩
  | .hbm, ⟨105, _⟩ => ⟨S650000x128, .f32⟩
  | .hbm, ⟨106, _⟩ => ⟨S650000x128, .f32⟩
  | .hbm, ⟨107, _⟩ => ⟨S_, .f32⟩
  | .hbm, ⟨108, _⟩ => ⟨S50000x128, .f32⟩
  | .hbm, ⟨109, _⟩ => ⟨S650000x1, .i32⟩
  | .hbm, ⟨110, _⟩ => ⟨S50000x128, .f32⟩
  | .hbm, ⟨111, _⟩ => ⟨S1x128, .f32⟩
  | .hbm, ⟨112, _⟩ => ⟨S50000x128, .f32⟩
  | .hbm, ⟨113, _⟩ => ⟨S50000x128, .f32⟩
  | .hbm, ⟨114, _⟩ => ⟨S_, .f32⟩
  | .hbm, ⟨115, _⟩ => ⟨S50000x128, .f32⟩
  | .hbm, ⟨116, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_c_12 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_call3_cst : Ref sig .tc := ⟨.hbm, 114, rfl⟩
abbrev main_call3_v0 : Ref sig .tc := ⟨.hbm, 115, rfl⟩
abbrev main_v83 : Ref sig .tc := ⟨.hbm, 116, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S50000x128_S128x128_S50000x128_1_0_0_1_n_n_wf : DotDims.WF S50000x128 S128x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf

class Facts : Prop extends Facts₀ where

variable [Facts]
-- ==== Proof.LibPlainDot.lean ====
/-
  A plain matrix product read index by index over the extended reals.

  For the dimension numbers of an `M×K` by `K×N` product (contract the left operand's second axis with the right
  operand's first; no batch axis) both the accelerator's matrix product into a zero accumulator and the host's
  `dot_general` are, at the exact (extended-real) values, the function
      (i, j) ↦ ∑ k < K, l (i, k) · r (k, j).
  Row `i` of the product depends on row `i` of the left operand only, so a block of rows of the product is the
  product of the same block of rows of the left operand: this is what lets a product computed tile by tile over the
  row axis be compared with one whole product.
-/
import Idealize.ShloMosaic.PureOps.Ideal.Laws
import Idealize.ShloMosaic.Lib.ValueIdx

noncomputable section

namespace Cert.Lib.PlainDot

open Idealize.ShloMosaic Idealize.ShloMosaic.ValueIdx

/-- The matrix product of an `M×K` and a `K×N` array of extended reals, index by index. -/
def mm {M K N : Nat} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem mm_apply {M K N : Nat} (l : (⟨2, ![M, K]⟩ : Shape).Idx → EReal) (r : (⟨2, ![K, N]⟩ : Shape).Idx → EReal)
    (i : Fin M) (j : Fin N) : mm l r (ix2 i j) = ∑ k : Fin K, l (ix2 i k) * r (ix2 k j) := rfl

/-- The sum over the one-axis contraction index of the plain dimension numbers is the sum over `k < K` of the
    left operand at `(i, k)` times the right operand at `(k, j)`. -/
theorem contr_sum (M K N : Nat) (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = mm l r j := by
  unfold mm
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact ((DotDims.plain M K N).lhsIdx_val_of_single (cl := 1) rfl j _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single (cr := 0) rfl j _).trans hk
      | ⟨1, _⟩ => rfl)
  rw [el, er]
  rfl

/-- The accelerator's matrix product into the zero accumulator, at the exact values, is `mm`. -/
theorem matmul_zero {M K N : Nat} {φ₁ φ₂ : FTy} (prec : Option ContractPrecision)
    (l : FVec Ideal ⟨2, ![M, K]⟩ φ₁) (r : FVec Ideal ⟨2, ![K, N]⟩ φ₂) :
    matmul (F := Ideal) (DotDims.plain M K N) prec l r (constant (F := Ideal) ⟨2, ![M, N]⟩ .f32 0x00000000#32) = mm l r :=
  funext fun j => (Ideal.matmul_constant_zero_apply (DotDims.plain M K N) prec l r j).trans (contr_sum M K N l r j)

/-- The host's `dot_general`, at the exact values, is `mm`. -/
theorem dotGeneral {M K N : Nat} {φ₁ φ₂ : FTy} (prec : Option ContractPrecision)
    (l : FVec Ideal ⟨2, ![M, K]⟩ φ₁) (r : FVec Ideal ⟨2, ![K, N]⟩ φ₂) :
    Host.dotGeneral (F := Ideal) (DotDims.plain M K N) prec l r = mm l r :=
  funext fun j => (Ideal.dotGeneral_apply (DotDims.plain M K N) prec .single l r j).trans (contr_sum M K N l r j)

/-- Row locality: a row of the product reads the same row of the left operand. If `l'` at `(p, k)` is `l` at `(i, k)`
    for every `k`, the products agree at `(p, j)` and `(i, j)`. -/
theorem mm_row {M M' K N : Nat} (l : (⟨2, ![M, K]⟩ : Shape).Idx → EReal) (l' : (⟨2, ![M', K]⟩ : Shape).Idx → EReal)
    (r : (⟨2, ![K, N]⟩ : Shape).Idx → EReal) (i : Fin M) (p : Fin M') (j : Fin N)
    (h : ∀ k : Fin K, l' (ix2 p k) = l (ix2 i k)) : mm l' r (ix2 p j) = mm l r (ix2 i j) := by
  rw [mm_apply, mm_apply]
  exact Finset.sum_congr rfl fun k _ => by rw [h k]

end Cert.Lib.PlainDot

end
-- ==== Proof.LibDenseLayer.lean ====
/-
  A dense layer with a leaky rectifier in front, over the extended reals:
      out (i, j) = (∑ k, φ (agg (i, k) + b (0, k)) · w (k, j)) + b' (0, j),
  where φ v is v for v above zero and slope · v otherwise.  Two spellings of φ occur: one selects v where v > 0, the
  other where v ≥ 0; they agree because slope · 0 = 0.  Row i of the result reads row i of `agg` only.
-/
import proofs.«177400_j85727547228592_1_alg».proof.Proof.LibPlainDot
import Idealize.ShloMosaic.Lib.ValueLayout
import Idealize.ShloMosaic.Lib.Pipeline.Value

noncomputable section

namespace Cert.Lib.DenseLayer

open Idealize.ShloMosaic Idealize.ShloMosaic.ValueIdx Cert.Lib.PlainDot

/-- The leaky rectifier that keeps `v` where `v > 0`. -/
def lreluGt (s v : EReal) : EReal := Scalar.select (Ideal.cmp .ogt v 0) v (s * v)
/-- The leaky rectifier that keeps `v` where `v ≥ 0`. -/
def lreluGe (s v : EReal) : EReal := Scalar.select (Ideal.cmp .oge v 0) v (s * v)

/-- The two rectifiers are one function: they differ only in which branch is taken at `v = 0`, where both give `0`. -/
theorem lreluGt_eq_lreluGe (s v : EReal) : lreluGt s v = lreluGe s v := by
  unfold lreluGt lreluGe Ideal.cmp
  rcases lt_trichotomy (0 : EReal) v with h | h | h
  · have h1 : decide (0 < v) = true := decide_eq_true h
    have h2 : decide (0 ≤ v) = true := decide_eq_true h.le
    simp only [h1, h2]
  · subst h
    have h1 : decide ((0 : EReal) < 0) = false := decide_eq_false (lt_irrefl _)
    have h2 : decide ((0 : EReal) ≤ 0) = true := decide_eq_true le_rfl
    simp only [h1, h2, mul_zero]
    show Scalar.select 0#1 (0 : EReal) 0 = Scalar.select 1#1 (0 : EReal) 0
    rw [select_zero, select_one]
  · have h1 : decide (0 < v) = false := decide_eq_false (not_lt.mpr h.le)
    have h2 : decide (0 ≤ v) = false := decide_eq_false (not_le.mpr h)
    simp only [h1, h2]

/-- Bias added along the rows, then the rectifier (the `>` spelling). -/
def actGt {M D : Nat} (s : EReal) (agg : (⟨2, ![M, D]⟩ : Shape).Idx → EReal) (b : (⟨2, ![1, D]⟩ : Shape).Idx → EReal) :
    (⟨2, ![M, D]⟩ : Shape).Idx → EReal :=
  fun i => lreluGt s (agg i + b (ix2 (0 : Fin 1) (i 1)))

/-- The layer: activation, product with the weights, bias along the rows. -/
def layer {M D N : Nat} (s : EReal) (agg : (⟨2, ![M, D]⟩ : Shape).Idx → EReal) (b : (⟨2, ![1, D]⟩ : Shape).Idx → EReal)
    (w : (⟨2, ![D, N]⟩ : Shape).Idx → EReal) (b' : (⟨2, ![1, N]⟩ : Shape).Idx → EReal) : (⟨2, ![M, N]⟩ : Shape).Idx → EReal :=
  fun j => mm (actGt s agg b) w j + b' (ix2 (0 : Fin 1) (j 1))

/-- Row locality of the layer. -/
theorem layer_row {M M' D N : Nat} (s : EReal) (agg : (⟨2, ![M, D]⟩ : Shape).Idx → EReal)
    (agg' : (⟨2, ![M', D]⟩ : Shape).Idx → EReal) (b : (⟨2, ![1, D]⟩ : Shape).Idx → EReal)
    (w : (⟨2, ![D, N]⟩ : Shape).Idx → EReal) (b' : (⟨2, ![1, N]⟩ : Shape).Idx → EReal) (i : Fin M) (p : Fin M') (j : Fin N)
    (h : ∀ k : Fin D, agg' (ix2 p k) = agg (ix2 i k)) : layer s agg' b w b' (ix2 p j) = layer s agg b w b' (ix2 i j) := by
  show mm (actGt s agg' b) w (ix2 p j) + _ = mm (actGt s agg b) w (ix2 i j) + _
  rw [mm_row (actGt s agg b) (actGt s agg' b) w i p j (fun k => by
    show lreluGt s (agg' (ix2 p k) + _) = lreluGt s (agg (ix2 i k) + _)
    rw [h k]
    rfl)]
  rfl

/-- The vector operations of the activation, at the exact values, are `actGt` at the slope's value: bias row broadcast
    and added, compared with zero, scaled by the slope word, selected, narrowed (the narrowing is the identity). -/
theorem act_payload {M D : Nat} (hb : (⟨2, ![1, D]⟩ : Shape).Broadcasts ⟨2, ![M, D]⟩) (hlt : FTy.bf16.bits < FTy.f32.bits)
    (sl : BitVec 32) (v0 : FVec Ideal ⟨2, ![M, D]⟩ .f32) (v2 : FVec Ideal ⟨2, ![1, D]⟩ .f32) :
    (truncf .bf16 (select (cmpf .ogt (addf v0 (broadcastTo ⟨2, ![M, D]⟩ v2 hb))
        (broadcast ⟨2, ![M, D]⟩ (Scalar.ofBits (F := Ideal) .f32 0x00000000#32)))
      (addf v0 (broadcastTo ⟨2, ![M, D]⟩ v2 hb))
      (mulf (broadcast ⟨2, ![M, D]⟩ (Scalar.ofBits (F := Ideal) .f32 sl)) (addf v0 (broadcastTo ⟨2, ![M, D]⟩ v2 hb)))) hlt
      : FVec Ideal ⟨2, ![M, D]⟩ .bf16)
      = actGt (Ideal.ofBits .f32 sl) v0 v2 := by
  funext i
  obtain ⟨p, q, rfl⟩ : ∃ (p : Fin M) (q : Fin D), i = ix2 p q := ⟨i 0, i 1, eq_ix2 i⟩
  show Scalar.select (Ideal.cmp .ogt (v0 (ix2 p q) + broadcastTo ⟨2, ![M, D]⟩ v2 hb (ix2 p q)) (Ideal.ofBits .f32 0x00000000#32))
      (v0 (ix2 p q) + broadcastTo ⟨2, ![M, D]⟩ v2 hb (ix2 p q))
      (Ideal.ofBits .f32 sl * (v0 (ix2 p q) + broadcastTo ⟨2, ![M, D]⟩ v2 hb (ix2 p q))) = _
  rw [broadcastTo_1b_ab_apply, Ideal.ofBits_zero_f32]
  rfl

/-- The whole payload of the fused layer, at the exact values, is `layer`. -/
theorem layer_payload {M D N : Nat} (hb : (⟨2, ![1, D]⟩ : Shape).Broadcasts ⟨2, ![M, D]⟩)
    (hb' : (⟨2, ![1, N]⟩ : Shape).Broadcasts ⟨2, ![M, N]⟩) (hlt : FTy.bf16.bits < FTy.f32.bits) (sl : BitVec 32)
    (v0 : FVec Ideal ⟨2, ![M, D]⟩ .f32) (v2 : FVec Ideal ⟨2, ![1, D]⟩ .f32) (v12 : FVec Ideal ⟨2, ![D, N]⟩ .bf16)
    (v15 : FVec Ideal ⟨2, ![1, N]⟩ .f32) :
    addf (matmul (F := Ideal) (DotDims.plain M D N) none
        (truncf .bf16 (select (cmpf .ogt (addf v0 (broadcastTo ⟨2, ![M, D]⟩ v2 hb))
            (broadcast ⟨2, ![M, D]⟩ (Scalar.ofBits (F := Ideal) .f32 0x00000000#32)))
          (addf v0 (broadcastTo ⟨2, ![M, D]⟩ v2 hb))
          (mulf (broadcast ⟨2, ![M, D]⟩ (Scalar.ofBits (F := Ideal) .f32 sl)) (addf v0 (broadcastTo ⟨2, ![M, D]⟩ v2 hb)))) hlt)
        v12 (constant (F := Ideal) ⟨2, ![M, N]⟩ .f32 0x00000000#32))
      (broadcastTo ⟨2, ![M, N]⟩ v15 hb')
      = layer (Ideal.ofBits .f32 sl) v0 v2 v12 v15 := by
  rw [act_payload hb hlt sl v0 v2, matmul_zero]
  funext j
  obtain ⟨p, q, rfl⟩ : ∃ (p : Fin M) (q : Fin N), j = ix2 p q := ⟨j 0, j 1, eq_ix2 j⟩
  show mm (actGt (Ideal.ofBits .f32 sl) v0 v2) v12 (ix2 p q) + broadcastTo ⟨2, ![M, N]⟩ v15 hb' (ix2 p q) = _
  rw [broadcastTo_1b_ab_apply]
  rfl

end Cert.Lib.DenseLayer

end
-- ==== Proof.LibRowBlock.lean ====
/-
  Row blocks.  The matrix product and the dense layer are row-local, so their value at an index `z` of the whole
  array equals their value at an index `y` of a block of rows whenever the block's row `y 0` of the left operand is
  the whole operand's row `z 0` and the two indices name the same column.  Stated over arbitrary indices (not
  coordinates), so that it can be used at a block's index and at its position in the array.
-/
import proofs.«177400_j85727547228592_1_alg».proof.Proof.LibDenseLayer

noncomputable section

namespace Cert.Lib.RowBlock

open Idealize.ShloMosaic Idealize.ShloMosaic.ValueIdx Cert.Lib.PlainDot Cert.Lib.DenseLayer

/-- The product at index `y` of a row block equals the whole product at `z`: same column, and row `y 0` of the block
    is row `z 0` of the whole left operand. -/
theorem mm_block {M M' K N : Nat} (l : (⟨2, ![M, K]⟩ : Shape).Idx → EReal) (l' : (⟨2, ![M', K]⟩ : Shape).Idx → EReal)
    (r : (⟨2, ![K, N]⟩ : Shape).Idx → EReal) (y : (⟨2, ![M', N]⟩ : Shape).Idx) (z : (⟨2, ![M, N]⟩ : Shape).Idx)
    (h1 : (z 1).val = (y 1).val) (hl : ∀ k : Fin K, l' (ix2 (y 0) k) = l (ix2 (z 0) k)) : mm l' r y = mm l r z := by
  have e : (z 1 : Fin N) = (y 1 : Fin N) := Fin.ext h1
  calc mm l' r y = mm l' r (ix2 (y 0) (y 1)) := congrArg (mm l' r) (eq_ix2 y)
    _ = mm l r (ix2 (z 0) (y 1)) := mm_row l l' r (z 0) (y 0) (y 1) hl
    _ = mm l r (ix2 (z 0) (z 1)) := by rw [e]
    _ = mm l r z := (congrArg (mm l r) (eq_ix2 z)).symm

/-- The same for the dense layer. -/
theorem layer_block {M M' D N : Nat} (s : EReal) (agg : (⟨2, ![M, D]⟩ : Shape).Idx → EReal)
    (agg' : (⟨2, ![M', D]⟩ : Shape).Idx → EReal) (b : (⟨2, ![1, D]⟩ : Shape).Idx → EReal)
    (w : (⟨2, ![D, N]⟩ : Shape).Idx → EReal) (b' : (⟨2, ![1, N]⟩ : Shape).Idx → EReal)
    (y : (⟨2, ![M', N]⟩ : Shape).Idx) (z : (⟨2, ![M, N]⟩ : Shape).Idx)
    (h1 : (z 1).val = (y 1).val) (hl : ∀ k : Fin D, agg' (ix2 (y 0) k) = agg (ix2 (z 0) k)) :
    layer s agg' b w b' y = layer s agg b w b' z := by
  have e : (z 1 : Fin N) = (y 1 : Fin N) := Fin.ext h1
  calc layer s agg' b w b' y = layer s agg' b w b' (ix2 (y 0) (y 1)) := congrArg (layer s agg' b w b') (eq_ix2 y)
    _ = layer s agg b w b' (ix2 (z 0) (y 1)) := layer_row s agg agg' b w b' (z 0) (y 0) (y 1) hl
    _ = layer s agg b w b' (ix2 (z 0) (z 1)) := by rw [e]
    _ = layer s agg b w b' z := (congrArg (layer s agg b w b') (eq_ix2 z)).symm

end Cert.Lib.RowBlock

end
-- ==== Proof.Product0.lean ====
/-
  What the first linear-transform call leaves in its output array.

  The call is tiled over the rows: grid point `t` loads rows `5000·t … 5000·t + 4999` of the node features and
  the whole `128×128` weight matrix, multiplies them (the narrowing to bf16 is the identity on extended reals, and
  the accumulator starts at zero, so the product is the exact sum over the contracted axis) and writes the
  `5000×128` block back at the same rows.  A row of a product reads only the same row of the left operand, so each
  written block is that block of ONE whole product, and the ten blocks cover the array: after the call the output
  array is the product of the two arrays the call found, whatever they were.
-/
import proofs.«177400_j85727547228592_1_alg».proof.Proof.Gen.KernelIdeal.Frame
import proofs.«177400_j85727547228592_1_alg».proof.Proof.LibRowBlock
import Idealize.ShloMosaic.Lib.Pipeline.Value
import Idealize.ShloMosaic.Lib.ValueIdx
import Idealize.ShloMosaic.PureOps.Ideal.Laws

set_option maxRecDepth 16384

noncomputable section

namespace Cert.KernelIdeal.Product0

open Idealize.ShloMosaic Idealize.ShloMosaic.TcCoe Idealize.SL.Sem Idealize.ShloMosaic.ValueIdx
open Cert.KernelIdeal Cert.KernelIdeal.Gen Cert.Lib.PlainDot Cert.Lib.RowBlock

variable (V : (c : Dev nD) → (b : Ref sig .tc) → Buf (Elt Ideal) ((c : Thread nD τ).loc b))

theorem offset_zero : (![0, 0] : Fin 2 → Nat) = fun _ => 0 := funext fun a => by fin_cases a <;> rfl

/-- The body's value is the product of its two loaded blocks. -/
theorem payload (x0 : Vec Ideal S5000x128 .f32) (x1 : Vec Ideal S128x128 .f32) :
    k0_pay1 x0 x1 = mm (x0 : S5000x128.Idx → EReal) (x1 : S128x128.Idx → EReal) :=
  matmul_zero (M := 5000) (K := 128) (N := 128) none (truncf .bf16 x0 bitsLt_bf16_f32) (truncf .bf16 x1 bitsLt_bf16_f32)

/-- The body's value at an index `j` of the block is the whole product at `z`, when `z` names the same column, the
    block's row `j 0` is the array's row `z 0`, and the right block is the whole right array. -/
theorem point_value (x0 : Vec Ideal S5000x128 .f32) (x1 : Vec Ideal S128x128 .f32)
    (a : S50000x128.Idx → EReal) (b : S128x128.Idx → EReal) (j : S5000x128.Idx) (z : S50000x128.Idx)
    (h1 : (z 1).val = (j 1).val) (hl : ∀ k : Fin 128, x0 (ix2 (j 0) k) = a (ix2 (z 0) k)) (hr : ∀ y, x1 y = b y) :
    k0_pay1 x0 x1 j = mm a b z := by
  have e : (x1 : S128x128.Idx → EReal) = b := funext hr
  subst e
  rw [payload]
  exact mm_block a x0 x1 j z h1 hl

/-- The printed index maps over the ten grid points: the left window moves with the output window along the rows,
    everything else stays at block zero. -/
theorem index_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every row block is some point's. -/
theorem index_onto : ∀ q : Fin 10, ∃ t : Fin cfg0.N, win0_2.index t = ![q.val, 0] :=
  (by decide +kernel : ∀ q : Fin 10, ∃ t : Fin grid0.N, win0_2.index t = ![q.val, 0])

/-- What point `t` writes back is block `t` of the product of the two arrays the call found. -/
theorem written_block (c : Dev nD) (t : Fin cfg0.N) :
    (dat0 V c).flushed 2 t = ((cfg0.win 2).blk t).view.read (Elt Ideal)
      (mm (V c main_arg0 : S50000x128.Idx → EReal) (V c main_arg1 : S128x128.Idx → EReal)) := by
  show (cfg0.win 2).cut (grid0.coords t) ((dat0 V c).after 2 t) = _
  rw [after0_2]
  unfold out0_2
  rw [View.canon_unit_zero offset_zero]
  simp only [View.ld_unit_zero (S := S5000x128) offset_zero, View.ld_unit_zero (S := S128x128) offset_zero]
  obtain ⟨e0, e1, e2, e3, e4, e5⟩ := index_facts t
  funext j
  refine point_value (iblk0 V c 0 t) (iblk0 V c 1 t) (V c main_arg0) (V c main_arg1) j
    (((cfg0.win 2).blk t).view.emb j) ?_ ?_ ?_
  · show win0_2.index t (1 : Fin 2) * 128 + 1 * (j 1).val = (j 1).val
    omega
  · intro k
    show V c main_arg0 (((cfg0.win 0).blk t).view.emb (ix2 (j 0) k)) = V c main_arg0 (ix2 ((((cfg0.win 2).blk t).view.emb j) 0) k)
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  · intro y
    show V c main_arg1 (((cfg0.win 1).blk t).view.emb y) = V c main_arg1 y
    refine congrArg (V c main_arg1) (funext fun a => Fin.ext ?_)
    match a with
    | ⟨0, _⟩ => show win0_1.index t (0 : Fin 2) * 128 + 1 * (y 0).val = (y 0).val; omega
    | ⟨1, _⟩ => show win0_1.index t (1 : Fin 2) * 128 + 1 * (y 1).val = (y 1).val; omega

/-- An index of the array is in point `t`'s block iff each coordinate is in the block's range on its axis. -/
theorem mem_block (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Every index of the array lies in the block of the point that holds its row. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := index_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the call its output array is the product of the two arrays it found. -/
theorem array_after (c : Dev nD) :
    (dat0 V c).arrAt 2 cfg0.N = mm (V c main_arg0 : S50000x128.Idx → EReal) (V c main_arg1 : S128x128.Idx → EReal) :=
  (dat0 V c).arrAt_eq_of_cover 2 _ (fun t _ => written_block V c t) covered

end Cert.KernelIdeal.Product0

end
-- ==== Proof.Product2.lean ====
/-
  What the second linear-transform call leaves in its output array.

  The call is tiled over the rows: grid point `t` loads rows `5000·t … 5000·t + 4999` of the node features and
  the whole `128×128` weight matrix, multiplies them (the narrowing to bf16 is the identity on extended reals, and
  the accumulator starts at zero, so the product is the exact sum over the contracted axis) and writes the
  `5000×128` block back at the same rows.  A row of a product reads only the same row of the left operand, so each
  written block is that block of ONE whole product, and the ten blocks cover the array: after the call the output
  array is the product of the two arrays the call found, whatever they were.
-/
import proofs.«177400_j85727547228592_1_alg».proof.Proof.Gen.KernelIdeal.Frame
import proofs.«177400_j85727547228592_1_alg».proof.Proof.LibRowBlock
import Idealize.ShloMosaic.Lib.Pipeline.Value
import Idealize.ShloMosaic.Lib.ValueIdx
import Idealize.ShloMosaic.PureOps.Ideal.Laws

set_option maxRecDepth 16384

noncomputable section

namespace Cert.KernelIdeal.Product2

open Idealize.ShloMosaic Idealize.ShloMosaic.TcCoe Idealize.SL.Sem Idealize.ShloMosaic.ValueIdx
open Cert.KernelIdeal Cert.KernelIdeal.Gen Cert.Lib.PlainDot Cert.Lib.RowBlock

variable (V : (c : Dev nD) → (b : Ref sig .tc) → Buf (Elt Ideal) ((c : Thread nD τ).loc b))

theorem offset_zero : (![0, 0] : Fin 2 → Nat) = fun _ => 0 := funext fun a => by fin_cases a <;> rfl

/-- The body's value is the product of its two loaded blocks. -/
theorem payload (x0 : Vec Ideal S5000x128 .f32) (x1 : Vec Ideal S128x128 .f32) :
    k2_pay1 x0 x1 = mm (x0 : S5000x128.Idx → EReal) (x1 : S128x128.Idx → EReal) := by
  have e : shapeCast S5000x128 x0 shapeCasts_S5000x128_S5000x128 = x0 := shapeCast_self x0 _
  unfold k2_pay1
  rw [e]
  exact matmul_zero (M := 5000) (K := 128) (N := 128) none (truncf .bf16 x0 bitsLt_bf16_f32) (truncf .bf16 x1 bitsLt_bf16_f32)

/-- The body's value at an index `j` of the block is the whole product at `z`, when `z` names the same column, the
    block's row `j 0` is the array's row `z 0`, and the right block is the whole right array. -/
theorem point_value (x0 : Vec Ideal S5000x128 .f32) (x1 : Vec Ideal S128x128 .f32)
    (a : S50000x128.Idx → EReal) (b : S128x128.Idx → EReal) (j : S5000x128.Idx) (z : S50000x128.Idx)
    (h1 : (z 1).val = (j 1).val) (hl : ∀ k : Fin 128, x0 (ix2 (j 0) k) = a (ix2 (z 0) k)) (hr : ∀ y, x1 y = b y) :
    k2_pay1 x0 x1 j = mm a b z := by
  have e : (x1 : S128x128.Idx → EReal) = b := funext hr
  subst e
  rw [payload]
  exact mm_block a x0 x1 j z h1 hl

/-- The printed index maps over the ten grid points: the left window moves with the output window along the rows,
    everything else stays at block zero. -/
theorem index_facts : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) ≤ 9 :=
  (by decide +kernel : ∀ t : Fin grid2.N, _)

/-- Every row block is some point's. -/
theorem index_onto : ∀ q : Fin 10, ∃ t : Fin cfg2.N, win2_2.index t = ![q.val, 0] :=
  (by decide +kernel : ∀ q : Fin 10, ∃ t : Fin grid2.N, win2_2.index t = ![q.val, 0])

/-- What point `t` writes back is block `t` of the product of the two arrays the call found. -/
theorem written_block (c : Dev nD) (t : Fin cfg2.N) :
    (dat2 V c).flushed 2 t = ((cfg2.win 2).blk t).view.read (Elt Ideal)
      (mm (V c main_v44 : S50000x128.Idx → EReal) (V c main_arg3 : S128x128.Idx → EReal)) := by
  show (cfg2.win 2).cut (grid2.coords t) ((dat2 V c).after 2 t) = _
  rw [after2_2]
  unfold out2_2
  rw [View.canon_unit_zero offset_zero]
  simp only [View.ld_unit_zero (S := S5000x128) offset_zero, View.ld_unit_zero (S := S128x128) offset_zero]
  obtain ⟨e0, e1, e2, e3, e4, e5⟩ := index_facts t
  funext j
  refine point_value (iblk2 V c 0 t) (iblk2 V c 1 t) (V c main_v44) (V c main_arg3) j
    (((cfg2.win 2).blk t).view.emb j) ?_ ?_ ?_
  · show win2_2.index t (1 : Fin 2) * 128 + 1 * (j 1).val = (j 1).val
    omega
  · intro k
    show V c main_v44 (((cfg2.win 0).blk t).view.emb (ix2 (j 0) k)) = V c main_v44 (ix2 ((((cfg2.win 2).blk t).view.emb j) 0) k)
    refine congrArg (V c main_v44) (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  · intro y
    show V c main_arg3 (((cfg2.win 1).blk t).view.emb y) = V c main_arg3 y
    refine congrArg (V c main_arg3) (funext fun a => Fin.ext ?_)
    match a with
    | ⟨0, _⟩ => show win2_1.index t (0 : Fin 2) * 128 + 1 * (y 0).val = (y 0).val; omega
    | ⟨1, _⟩ => show win2_1.index t (1 : Fin 2) * 128 + 1 * (y 1).val = (y 1).val; omega

/-- An index of the array is in point `t`'s block iff each coordinate is in the block's range on its axis. -/
theorem mem_block (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v45).slice (win2_2.rect t)).set ↔ _
  rw [View.set_slice_whole, Rect.mem_set_unit]
  exact Iff.rfl

/-- Every index of the array lies in the block of the point that holds its row. -/
theorem covered (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := index_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_block]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- After the call its output array is the product of the two arrays it found. -/
theorem array_after (c : Dev nD) :
    (dat2 V c).arrAt 2 cfg2.N = mm (V c main_v44 : S50000x128.Idx → EReal) (V c main_arg3 : S128x128.Idx → EReal) :=
  (dat2 V c).arrAt_eq_of_cover 2 _ (fun t _ => written_block V c t) covered

end Cert.KernelIdeal.Product2

end
-- ==== Proof.Product4.lean ====
/-
  What the third linear-transform call leaves in its output array.

  The call is tiled over the rows: grid point `t` loads rows `5000·t … 5000·t + 4999` of the node features and
  the whole `128×128` weight matrix, multiplies them (the narrowing to bf16 is the identity on extended reals, and
  the accumulator starts at zero, so the product is the exact sum over the contracted axis) and writes the
  `5000×128` block back at the same rows.  A row of a product reads only the same row of the left operand, so each
  written block is that block of ONE whole product, and the ten blocks cover the array: after the call the output
  array is the product of the two arrays the call found, whatever they were.
-/
import proofs.«177400_j85727547228592_1_alg».proof.Proof.Gen.KernelIdeal.Frame
import proofs.«177400_j85727547228592_1_alg».proof.Proof.LibRowBlock
import Idealize.ShloMosaic.Lib.Pipeline.Value
import Idealize.ShloMosaic.Lib.ValueIdx
import Idealize.ShloMosaic.PureOps.Ideal.Laws

set_option maxRecDepth 16384

noncomputable section

namespace Cert.KernelIdeal.Product4

open Idealize.ShloMosaic Idealize.ShloMosaic.TcCoe Idealize.SL.Sem Idealize.ShloMosaic.ValueIdx
open Cert.KernelIdeal Cert.KernelIdeal.Gen Cert.Lib.PlainDot Cert.Lib.RowBlock

variable (V : (c : Dev nD) → (b : Ref sig .tc) → Buf (Elt Ideal) ((c : Thread nD τ).loc b))

theorem offset_zero : (![0, 0] : Fin 2 → Nat) = fun _ => 0 := funext fun a => by fin_cases a <;> rfl

/-- The body's value is the product of its two loaded blocks. -/
theorem payload (x0 : Vec Ideal S5000x128 .f32) (x1 : Vec Ideal S128x128 .f32) :
    k4_pay1 x0 x1 = mm (x0 : S5000x128.Idx → EReal) (x1 : S128x128.Idx → EReal) := by
  have e : shapeCast S5000x128 x0 shapeCasts_S5000x128_S5000x128 = x0 := shapeCast_self x0 _
  unfold k4_pay1
  rw [e]
  exact matmul_zero (M := 5000) (K := 128) (N := 128) none (truncf .bf16 x0 bitsLt_bf16_f32) (truncf .bf16 x1 bitsLt_bf16_f32)

/-- The body's value at an index `j` of the block is the whole product at `z`, when `z` names the same column, the
    block's row `j 0` is the array's row `z 0`, and the right block is the whole right array. -/
theorem point_value (x0 : Vec Ideal S5000x128 .f32) (x1 : Vec Ideal S128x128 .f32)
    (a : S50000x128.Idx → EReal) (b : S128x128.Idx → EReal) (j : S5000x128.Idx) (z : S50000x128.Idx)
    (h1 : (z 1).val = (j 1).val) (hl : ∀ k : Fin 128, x0 (ix2 (j 0) k) = a (ix2 (z 0) k)) (hr : ∀ y, x1 y = b y) :
    k4_pay1 x0 x1 j = mm a b z := by
  have e : (x1 : S128x128.Idx → EReal) = b := funext hr
  subst e
  rw [payload]
  exact mm_block a x0 x1 j z h1 hl

/-- The printed index maps over the ten grid points: the left window moves with the output window along the rows,
    everything else stays at block zero. -/
theorem index_facts : ∀ t : Fin cfg4.N, win4_0.index t (0 : Fin 2) = win4_2.index t (0 : Fin 2)
    ∧ win4_0.index t (1 : Fin 2) = 0 ∧ win4_1.index t (0 : Fin 2) = 0 ∧ win4_1.index t (1 : Fin 2) = 0
    ∧ win4_2.index t (1 : Fin 2) = 0 ∧ win4_2.index t (0 : Fin 2) ≤ 9 :=
  (by decide +kernel : ∀ t : Fin grid4.N, _)

/-- Every row block is some point's. -/
theorem index_onto : ∀ q : Fin 10, ∃ t : Fin cfg4.N, win4_2.index t = ![q.val, 0] :=
  (by decide +kernel : ∀ q : Fin 10, ∃ t : Fin grid4.N, win4_2.index t = ![q.val, 0])

/-- What point `t` writes back is block `t` of the product of the two arrays the call found. -/
theorem written_block (c : Dev nD) (t : Fin cfg4.N) :
    (dat4 V c).flushed 2 t = ((cfg4.win 2).blk t).view.read (Elt Ideal)
      (mm (V c main_v59 : S50000x128.Idx → EReal) (V c main_arg5 : S128x128.Idx → EReal)) := by
  show (cfg4.win 2).cut (grid4.coords t) ((dat4 V c).after 2 t) = _
  rw [after4_2]
  unfold out4_2
  rw [View.canon_unit_zero offset_zero]
  simp only [View.ld_unit_zero (S := S5000x128) offset_zero, View.ld_unit_zero (S := S128x128) offset_zero]
  obtain ⟨e0, e1, e2, e3, e4, e5⟩ := index_facts t
  funext j
  refine point_value (iblk4 V c 0 t) (iblk4 V c 1 t) (V c main_v59) (V c main_arg5) j
    (((cfg4.win 2).blk t).view.emb j) ?_ ?_ ?_
  · show win4_2.index t (1 : Fin 2) * 128 + 1 * (j 1).val = (j 1).val
    omega
  · intro k
    show V c main_v59 (((cfg4.win 0).blk t).view.emb (ix2 (j 0) k)) = V c main_v59 (ix2 ((((cfg4.win 2).blk t).view.emb j) 0) k)
    refine congrArg (V c main_v59) (funext fun a => Fin.ext ?_)
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 128 + 1 * k.val = k.val; omega
  · intro y
    show V c main_arg5 (((cfg4.win 1).blk t).view.emb y) = V c main_arg5 y
    refine congrArg (V c main_arg5) (funext fun a => Fin.ext ?_)
    match a with
    | ⟨0, _⟩ => show win4_1.index t (0 : Fin 2) * 128 + 1 * (y 0).val = (y 0).val; omega
    | ⟨1, _⟩ => show win4_1.index t (1 : Fin 2) * 128 + 1 * (y 1).val = (y 1).val; omega

/-- An index of the array is in point `t`'s block iff each coordinate is in the block's range on its axis. -/
theorem mem_block (t : Fin cfg4.N) (i : S50000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v60).slice (win4_2.rect t)).set ↔ _
  rw [View.set_slice_whole, Rect.mem_set_unit]
  exact Iff.rfl

/-- Every index of the array lies in the block of the point that holds its row. -/
theorem covered (i : S50000x128.Idx) :
    ∃ t : Fin cfg4.N, (cfg4.win 2).flush t = true ∧ i ∈ ((cfg4.win 2).blk t).view.set := by
  have hi0 : (i 0).val < 50000 := (i 0).isLt
  have hi1 : (i 1).val < 128 := (i 1).isLt
  obtain ⟨t, ht⟩ := index_onto ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [mem_block]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

/-- After the call its output array is the product of the two arrays it found. -/
theorem array_after (c : Dev nD) :
    (dat4 V c).arrAt 2 cfg4.N = mm (V c main_v59 : S50000x128.Idx → EReal) (V c main_arg5 : S128x128.Idx → EReal) :=
  (dat4 V c).arrAt_eq_of_cover 2 _ (fun t _ => written_block V c t) covered

end Cert.KernelIdeal.Product4

end
-- ==== Proof.LibHostRead.lean ====
/-
  Small layout operations read at an index: a scalar broadcast everywhere; a vector made a column, a column spread
  over the columns of a matrix, a vector made a row, a row spread over the rows of a matrix; a one-column matrix
  flattened; a column spread over a matrix by the accelerator's broadcast; and a matrix assembled from three blocks
  of columns.  Each reads the operand at the evident index.
-/
import Idealize.ShloMosaic.PureOps.Ideal
import Idealize.ShloMosaic.Lib.ValueIdx
import Idealize.ShloMosaic.Lib.ValueLayout
import Idealize.ShloMosaic.Lib.Pipeline.Value

noncomputable section

namespace Cert.LibHostRead

open Idealize.ShloMosaic Idealize.ShloMosaic.ValueIdx

variable {α : Type}

/-- A scalar broadcast to any shape reads the scalar everywhere. -/
theorem bcast_scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun a => a.elim0

/-- A vector `[a]` made a column `[a, 1]` reads, at `(i, u)`, the vector at `i`. -/
theorem bcast_col_apply {a : Nat} (dims : Fin 1 → Fin 2) (hd : dims 0 = 0)
    (h : (⟨1, ![a]⟩ : Shape).BroadcastsInDim ⟨2, ![a, 1]⟩ dims)
    (x : (⟨1, ![a]⟩ : Shape).Idx → α) (i : Fin a) (u : Fin 1) :
    broadcastInDim ⟨2, ![a, 1]⟩ dims h x (ix2 i u) = x (ix1 i) := by
  refine broadcastInDim_apply dims h x (ix2 i u) (ix1 i) fun ax => ?_
  match ax with
  | ⟨0, _⟩ =>
    show i.val = if a = 1 then 0 else ((ix2 i u : (⟨2, ![a, 1]⟩ : Shape).Idx) (dims 0)).val
    rw [hd]
    split
    · have := i.isLt; omega
    · rfl

/-- A column `[a, 1]` spread over `[a, b]` reads, at `(i, c)`, the column at `i`. -/
theorem bcast_col_wide_apply {a b : Nat} (dims : Fin 2 → Fin 2) (hd0 : dims 0 = 0) (hd1 : dims 1 = 1)
    (h : (⟨2, ![a, 1]⟩ : Shape).BroadcastsInDim ⟨2, ![a, b]⟩ dims)
    (x : (⟨2, ![a, 1]⟩ : Shape).Idx → α) (i : Fin a) (c : Fin b) :
    broadcastInDim ⟨2, ![a, b]⟩ dims h x (ix2 i c) = x (ix2 i (0 : Fin 1)) := by
  refine broadcastInDim_apply dims h x (ix2 i c) (ix2 i (0 : Fin 1)) fun ax => ?_
  match ax with
  | ⟨0, _⟩ =>
    show i.val = if a = 1 then 0 else ((ix2 i c : (⟨2, ![a, b]⟩ : Shape).Idx) (dims 0)).val
    rw [hd0]
    split
    · have := i.isLt; omega
    · rfl
  | ⟨1, _⟩ =>
    show (0 : ℕ) = if (1 : ℕ) = 1 then 0 else _
    rw [if_pos rfl]

/-- A vector `[b]` made a row `[1, b]` reads, at `(u, c)`, the vector at `c`. -/
theorem bcast_row_apply {b : Nat} (dims : Fin 1 → Fin 2) (hd : dims 0 = 1)
    (h : (⟨1, ![b]⟩ : Shape).BroadcastsInDim ⟨2, ![1, b]⟩ dims)
    (x : (⟨1, ![b]⟩ : Shape).Idx → α) (u : Fin 1) (c : Fin b) :
    broadcastInDim ⟨2, ![1, b]⟩ dims h x (ix2 u c) = x (ix1 c) := by
  refine broadcastInDim_apply dims h x (ix2 u c) (ix1 c) fun ax => ?_
  match ax with
  | ⟨0, _⟩ =>
    show c.val = if b = 1 then 0 else ((ix2 u c : (⟨2, ![1, b]⟩ : Shape).Idx) (dims 0)).val
    rw [hd]
    split
    · have := c.isLt; omega
    · rfl

/-- A row `[1, b]` spread over `[a, b]` reads, at `(i, c)`, the row at `c`. -/
theorem bcast_row_wide_apply {a b : Nat} (dims : Fin 2 → Fin 2) (hd0 : dims 0 = 0) (hd1 : dims 1 = 1)
    (h : (⟨2, ![1, b]⟩ : Shape).BroadcastsInDim ⟨2, ![a, b]⟩ dims)
    (x : (⟨2, ![1, b]⟩ : Shape).Idx → α) (i : Fin a) (c : Fin b) :
    broadcastInDim ⟨2, ![a, b]⟩ dims h x (ix2 i c) = x (ix2 (0 : Fin 1) c) := by
  refine broadcastInDim_apply dims h x (ix2 i c) (ix2 (0 : Fin 1) c) fun ax => ?_
  match ax with
  | ⟨0, _⟩ =>
    show (0 : ℕ) = if (1 : ℕ) = 1 then 0 else _
    rw [if_pos rfl]
  | ⟨1, _⟩ =>
    show c.val = if b = 1 then 0 else ((ix2 i c : (⟨2, ![a, b]⟩ : Shape).Idx) (dims 1)).val
    rw [hd1]
    split
    · have := c.isLt; omega
    · rfl

/-- A one-column matrix `[a, 1]` flattened to `[a]` reads, at `i`, the matrix at `(i, 0)`. -/
theorem shapeCast_a1_a_apply {a : Nat} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- The accelerator's broadcast of a column `[a, 1]` to `[a, b]` reads, at `(i, c)`, the column at `i`. -/
theorem broadcastTo_a1_ab_apply {a b : Nat} (v : (⟨2, ![a, 1]⟩ : Shape).Idx → α)
    (h : (⟨2, ![a, 1]⟩ : Shape).Broadcasts ⟨2, ![a, b]⟩) (i : Fin a) (c : Fin b) :
    broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else _
    rw [if_pos rfl]

end Cert.LibHostRead

end
-- ==== Proof.LibBiasRelu.lean ====
/-
  Bias and rectifier, read index by index over the extended reals.

  For an `M×N` array `a` and a vector `b` of length `N` the function
      (i, j) ↦ max (a (i, j) + b j, 0)
  is what a graph-convolution layer applies after aggregation.  The host spells it with the bias made a row
  `[1, N]`, the row spread over `[M, N]`, an elementwise sum and an elementwise maximum with a broadcast zero; this
  file shows that spelling is the function above.  The function is local in the row: its value at `(i, j)` reads
  `a` at `(i, j)` only, so a block of rows of the result is the function of the same block of rows of `a`.
-/
import Idealize.ShloMosaic.PureOps.Ideal
import Idealize.ShloMosaic.Lib.ValueIdx
import proofs.«177400_j85727547228592_1_alg».proof.Proof.LibHostRead

noncomputable section

namespace Cert.Lib.BiasRelu

open Idealize.ShloMosaic Idealize.ShloMosaic.ValueIdx

/-- `max (a (i, j) + b j, 0)`, the zero being the extended real the all-zero word encodes. -/
def br {M N : Nat} (a : (⟨2, ![M, N]⟩ : Shape).Idx → EReal) (b : (⟨1, ![N]⟩ : Shape).Idx → EReal) :
    (⟨2, ![M, N]⟩ : Shape).Idx → EReal :=
  fun i => max (a i + b (ix1 (i 1))) (Ideal.ofBits .f32 0x00000000#32)

theorem br_apply {M N : Nat} (a : (⟨2, ![M, N]⟩ : Shape).Idx → EReal) (b : (⟨1, ![N]⟩ : Shape).Idx → EReal)
    (i : Fin M) (j : Fin N) : br a b (ix2 i j) = max (a (ix2 i j) + b (ix1 j)) (Ideal.ofBits .f32 0x00000000#32) := rfl

/-- The host's spelling: the bias made a row, the row spread over the rows, added, and the maximum taken with a
    broadcast zero. -/
theorem host_spelling {M N : Nat} (d2 : Fin 2 → Fin 2) (hd0 : d2 0 = 0) (hd1 : d2 1 = 1)
    (h2 : (⟨2, ![1, N]⟩ : Shape).BroadcastsInDim ⟨2, ![M, N]⟩ d2)
    (d1 : Fin 1 → Fin 2) (hd : d1 0 = 1) (h1 : (⟨1, ![N]⟩ : Shape).BroadcastsInDim ⟨2, ![1, N]⟩ d1)
    (d0 : Fin 0 → Fin 2) (h0 : (⟨0, ![]⟩ : Shape).BroadcastsInDim ⟨2, ![M, N]⟩ d0)
    (a : FVec Ideal ⟨2, ![M, N]⟩ .f32) (b : FVec Ideal ⟨1, ![N]⟩ .f32) :
    maximumf (addf a (broadcastInDim ⟨2, ![M, N]⟩ d2 h2 (broadcastInDim ⟨2, ![1, N]⟩ d1 h1 b)))
        (broadcastInDim ⟨2, ![M, N]⟩ d0 h0 (constant (F := Ideal) ⟨0, ![]⟩ .f32 0x00000000#32))
      = br a b := by
  funext i
  obtain ⟨p, q, rfl⟩ : ∃ (p : Fin M) (q : Fin N), i = ix2 p q := ⟨i 0, i 1, eq_ix2 i⟩
  rw [maximumf_apply, addf_apply, Cert.LibHostRead.bcast_row_wide_apply d2 hd0 hd1 h2,
    Cert.LibHostRead.bcast_row_apply d1 hd h1, Cert.LibHostRead.bcast_scalar_apply (t := ⟨2, ![M, N]⟩) d0 h0, constant_apply]
  rfl

/-- Row locality: if row `y 0` of `a'` is row `z 0` of `a` and the two indices name the same column, the values at
    `y` and at `z` agree. -/
theorem br_block {M M' N : Nat} (a : (⟨2, ![M, N]⟩ : Shape).Idx → EReal) (a' : (⟨2, ![M', N]⟩ : Shape).Idx → EReal)
    (b : (⟨1, ![N]⟩ : Shape).Idx → EReal) (y : (⟨2, ![M', N]⟩ : Shape).Idx) (z : (⟨2, ![M, N]⟩ : Shape).Idx)
    (h1 : (z 1).val = (y 1).val) (ha : a' y = a z) : br a' b y = br a b z := by
  have e : (z 1 : Fin N) = (y 1 : Fin N) := Fin.ext h1
  unfold br
  rw [ha, e]

end Cert.Lib.BiasRelu

end
-- ==== Proof.Rectify1.lean ====
/-
  What the first bias-and-rectifier call leaves in its output array.

  The call is tiled over the rows: grid point `t` loads rows `5000·t … 5000·t + 4999` of the aggregated features and
  the whole bias vector, adds the bias to every row and takes the maximum with zero, and writes the `5000×128`
  block back at the same rows.  The value at `(i, j)` reads the features at `(i, j)` only, so each written block is
  that block of ONE whole-array function, and the ten blocks cover the array: after the call the output array is
  `(i, j) ↦ max (a (i, j) + b j, 0)` of the two arrays the call found, whatever they were.
-/
import proofs.«177400_j85727547228592_1_alg».proof.Proof.Gen.KernelIdeal.Frame
import proofs.«177400_j85727547228592_1_alg».proof.Proof.LibBiasRelu
import Idealize.ShloMosaic.Lib.Pipeline.Value
import Idealize.ShloMosaic.Lib.ValueIdx
import Idealize.ShloMosaic.Lib.ValueLayout

set_option maxRecDepth 16384

noncomputable section

namespace Cert.KernelIdeal.Rectify1

open Idealize.ShloMosaic Idealize.ShloMosaic.TcCoe Idealize.SL.Sem Idealize.ShloMosaic.ValueIdx
open Cert.KernelIdeal Cert.KernelIdeal.Gen Cert.Lib.BiasRelu

variable (V : (c : Dev nD) → (b : Ref sig .tc) → Buf (Elt Ideal) ((c : Thread nD τ).loc b))

theorem offset_zero2 : (![0, 0] : Fin 2 → Nat) = fun _ => 0 := funext fun a => by fin_cases a <;> rfl
theorem offset_zero1 : (![0] : Fin 1 → Nat) = fun _ => 0 := funext fun a => by fin_cases a; rfl

/-- The body's value is the bias added to each row of its loaded block and rectified. -/
theorem payload (x0 : Vec Ideal S5000x128 .f32) (x1 : Vec Ideal S128 .f32) :
    k1_pay1 x0 x1 = br (x0 : S5000x128.Idx → EReal) (x1 : S128.Idx → EReal) := by
  funext i
  obtain ⟨p, q, rfl⟩ : ∃ (p : Fin 5000) (q : Fin 128), i = ix2 p q := ⟨i 0, i 1, eq_ix2 i⟩
  unfold k1_pay1
  show max (shapeCast S5000x128 x0 shapeCasts_S5000x128_S5000x128 (ix2 p q)
      + broadcastTo S5000x128 (shapeCast S1x128 x1 shapeCasts_S128_S1x128) broadcasts_S1x128_S5000x128 (ix2 p q))
      (Ideal.ofBits .f32 0x00000000#32) = _
  rw [shapeCast_self, broadcastTo_1b_ab_apply, shapeCast_a_1a_apply]
  rfl

/-- The body's value at an index `j` of the block is the whole-array function at `z`, when `z` names the same
    column, the block at `j` is the array at `z`, and the bias block is the whole bias. -/
theorem point_value (x0 : Vec Ideal S5000x128 .f32) (x1 : Vec Ideal S128 .f32)
    (a : S50000x128.Idx → EReal) (b : S128.Idx → EReal) (j : S5000x128.Idx) (z : S50000x128.Idx)
    (h1 : (z 1).val = (j 1).val) (ha : x0 j = a z) (hb : ∀ y, x1 y = b y) :
    k1_pay1 x0 x1 j = br a b z := by
  have e : (x1 : S128.Idx → EReal) = b := funext hb
  subst e
  rw [payload]
  exact br_block a x0 x1 j z h1 ha

/-- The printed index maps over the ten grid points: the feature window moves with the output window along the
    rows, everything else stays at block zero. -/
theorem index_facts : ∀ t : Fin cfg1.N, win1_0.index t (0 : Fin 2) = win1_2.index t (0 : Fin 2)
    ∧ win1_0.index t (1 : Fin 2) = 0 ∧ win1_1.index t (0 : Fin 1) = 0
    ∧ win1_2.index t (1 : Fin 2) = 0 ∧ win1_2.index t (0 : Fin 2) ≤ 9 :=
  (by decide +kernel : ∀ t : Fin grid1.N, _)

/-- Every row block is some point's. -/
theorem index_onto : ∀ q : Fin 10, ∃ t : Fin cfg1.N, win1_2.index t = ![q.val, 0] :=
  (by decide +kernel : ∀ q : Fin 10, ∃ t : Fin grid1.N, win1_2.index t = ![q.val, 0])

/-- What point `t` writes back is block `t` of the rectified sum of the two arrays the call found. -/
theorem written_block (c : Dev nD) (t : Fin cfg1.N) :
    (dat1 V c).flushed 2 t = ((cfg1.win 2).blk t).view.read (Elt Ideal)
      (br (V c main_v43 : S50000x128.Idx → EReal) (V c main_arg2 : S128.Idx → EReal)) := by
  show (cfg1.win 2).cut (grid1.coords t) ((dat1 V c).after 2 t) = _
  rw [after1_2]
  unfold out1_2
  rw [View.canon_unit_zero offset_zero2]
  simp only [View.ld_unit_zero (S := S5000x128) offset_zero2, View.ld_unit_zero (S := S128) offset_zero1]
  obtain ⟨e0, e1, e2, e3, e4⟩ := index_facts t
  funext j
  refine point_value (iblk1 V c 0 t) (iblk1 V c 1 t) (V c main_v43) (V c main_arg2) j
    (((cfg1.win 2).blk t).view.emb j) ?_ ?_ ?_
  · show win1_2.index t (1 : Fin 2) * 128 + 1 * (j 1).val = (j 1).val
    omega
  · show V c main_v43 (((cfg1.win 0).blk t).view.emb j) = V c main_v43 (((cfg1.win 2).blk t).view.emb j)
    refine congrArg (V c main_v43) (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  · intro y
    show V c main_arg2 (((cfg1.win 1).blk t).view.emb y) = V c main_arg2 y
    refine congrArg (V c main_arg2) (funext fun a => Fin.ext ?_)
    match a with
    | ⟨0, _⟩ => show win1_1.index t (0 : Fin 1) * 128 + 1 * (y 0).val = (y 0).val; omega

/-- An index of the array is in point `t`'s block iff each coordinate is in the block's range on its axis. -/
theorem mem_block (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v44).slice (win1_2.rect t)).set ↔ _
  rw [View.set_slice_whole, Rect.mem_set_unit]
  exact Iff.rfl

/-- Every index of the array lies in the block of the point that holds its row. -/
theorem covered (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := index_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- After the call its output array is the rectified sum of the two arrays it found. -/
theorem array_after (c : Dev nD) :
    (dat1 V c).arrAt 2 cfg1.N = br (V c main_v43 : S50000x128.Idx → EReal) (V c main_arg2 : S128.Idx → EReal) :=
  (dat1 V c).arrAt_eq_of_cover 2 _ (fun t _ => written_block V c t) covered

end Cert.KernelIdeal.Rectify1

end
-- ==== Proof.Rectify3.lean ====
/-
  What the second bias-and-rectifier call leaves in its output array.

  The call is tiled over the rows: grid point `t` loads rows `5000·t … 5000·t + 4999` of the aggregated features and
  the whole bias vector, adds the bias to every row and takes the maximum with zero, and writes the `5000×128`
  block back at the same rows.  The value at `(i, j)` reads the features at `(i, j)` only, so each written block is
  that block of ONE whole-array function, and the ten blocks cover the array: after the call the output array is
  `(i, j) ↦ max (a (i, j) + b j, 0)` of the two arrays the call found, whatever they were.
-/
import proofs.«177400_j85727547228592_1_alg».proof.Proof.Gen.KernelIdeal.Frame
import proofs.«177400_j85727547228592_1_alg».proof.Proof.LibBiasRelu
import Idealize.ShloMosaic.Lib.Pipeline.Value
import Idealize.ShloMosaic.Lib.ValueIdx
import Idealize.ShloMosaic.Lib.ValueLayout

set_option maxRecDepth 16384

noncomputable section

namespace Cert.KernelIdeal.Rectify3

open Idealize.ShloMosaic Idealize.ShloMosaic.TcCoe Idealize.SL.Sem Idealize.ShloMosaic.ValueIdx
open Cert.KernelIdeal Cert.KernelIdeal.Gen Cert.Lib.BiasRelu

variable (V : (c : Dev nD) → (b : Ref sig .tc) → Buf (Elt Ideal) ((c : Thread nD τ).loc b))

theorem offset_zero2 : (![0, 0] : Fin 2 → Nat) = fun _ => 0 := funext fun a => by fin_cases a <;> rfl
theorem offset_zero1 : (![0] : Fin 1 → Nat) = fun _ => 0 := funext fun a => by fin_cases a; rfl

/-- The body's value is the bias added to each row of its loaded block and rectified. -/
theorem payload (x0 : Vec Ideal S5000x128 .f32) (x1 : Vec Ideal S128 .f32) :
    k3_pay1 x0 x1 = br (x0 : S5000x128.Idx → EReal) (x1 : S128.Idx → EReal) := by
  funext i
  obtain ⟨p, q, rfl⟩ : ∃ (p : Fin 5000) (q : Fin 128), i = ix2 p q := ⟨i 0, i 1, eq_ix2 i⟩
  unfold k3_pay1
  show max (shapeCast S5000x128 x0 shapeCasts_S5000x128_S5000x128 (ix2 p q)
      + broadcastTo S5000x128 (shapeCast S1x128 x1 shapeCasts_S128_S1x128) broadcasts_S1x128_S5000x128 (ix2 p q))
      (Ideal.ofBits .f32 0x00000000#32) = _
  rw [shapeCast_self, broadcastTo_1b_ab_apply, shapeCast_a_1a_apply]
  rfl

/-- The body's value at an index `j` of the block is the whole-array function at `z`, when `z` names the same
    column, the block at `j` is the array at `z`, and the bias block is the whole bias. -/
theorem point_value (x0 : Vec Ideal S5000x128 .f32) (x1 : Vec Ideal S128 .f32)
    (a : S50000x128.Idx → EReal) (b : S128.Idx → EReal) (j : S5000x128.Idx) (z : S50000x128.Idx)
    (h1 : (z 1).val = (j 1).val) (ha : x0 j = a z) (hb : ∀ y, x1 y = b y) :
    k3_pay1 x0 x1 j = br a b z := by
  have e : (x1 : S128.Idx → EReal) = b := funext hb
  subst e
  rw [payload]
  exact br_block a x0 x1 j z h1 ha

/-- The printed index maps over the ten grid points: the feature window moves with the output window along the
    rows, everything else stays at block zero. -/
theorem index_facts : ∀ t : Fin cfg3.N, win3_0.index t (0 : Fin 2) = win3_2.index t (0 : Fin 2)
    ∧ win3_0.index t (1 : Fin 2) = 0 ∧ win3_1.index t (0 : Fin 1) = 0
    ∧ win3_2.index t (1 : Fin 2) = 0 ∧ win3_2.index t (0 : Fin 2) ≤ 9 :=
  (by decide +kernel : ∀ t : Fin grid3.N, _)

/-- Every row block is some point's. -/
theorem index_onto : ∀ q : Fin 10, ∃ t : Fin cfg3.N, win3_2.index t = ![q.val, 0] :=
  (by decide +kernel : ∀ q : Fin 10, ∃ t : Fin grid3.N, win3_2.index t = ![q.val, 0])

/-- What point `t` writes back is block `t` of the rectified sum of the two arrays the call found. -/
theorem written_block (c : Dev nD) (t : Fin cfg3.N) :
    (dat3 V c).flushed 2 t = ((cfg3.win 2).blk t).view.read (Elt Ideal)
      (br (V c main_v58 : S50000x128.Idx → EReal) (V c main_arg4 : S128.Idx → EReal)) := by
  show (cfg3.win 2).cut (grid3.coords t) ((dat3 V c).after 2 t) = _
  rw [after3_2]
  unfold out3_2
  rw [View.canon_unit_zero offset_zero2]
  simp only [View.ld_unit_zero (S := S5000x128) offset_zero2, View.ld_unit_zero (S := S128) offset_zero1]
  obtain ⟨e0, e1, e2, e3, e4⟩ := index_facts t
  funext j
  refine point_value (iblk3 V c 0 t) (iblk3 V c 1 t) (V c main_v58) (V c main_arg4) j
    (((cfg3.win 2).blk t).view.emb j) ?_ ?_ ?_
  · show win3_2.index t (1 : Fin 2) * 128 + 1 * (j 1).val = (j 1).val
    omega
  · show V c main_v58 (((cfg3.win 0).blk t).view.emb j) = V c main_v58 (((cfg3.win 2).blk t).view.emb j)
    refine congrArg (V c main_v58) (funext fun a => Fin.ext ?_)
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * (j 1).val = win3_2.index t (1 : Fin 2) * 128 + 1 * (j 1).val; omega
  · intro y
    show V c main_arg4 (((cfg3.win 1).blk t).view.emb y) = V c main_arg4 y
    refine congrArg (V c main_arg4) (funext fun a => Fin.ext ?_)
    match a with
    | ⟨0, _⟩ => show win3_1.index t (0 : Fin 1) * 128 + 1 * (y 0).val = (y 0).val; omega

/-- An index of the array is in point `t`'s block iff each coordinate is in the block's range on its axis. -/
theorem mem_block (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v59).slice (win3_2.rect t)).set ↔ _
  rw [View.set_slice_whole, Rect.mem_set_unit]
  exact Iff.rfl

/-- Every index of the array lies in the block of the point that holds its row. -/
theorem covered (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  obtain ⟨t, ht⟩ := index_onto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_block]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- After the call its output array is the rectified sum of the two arrays it found. -/
theorem array_after (c : Dev nD) :
    (dat3 V c).arrAt 2 cfg3.N = br (V c main_v58 : S50000x128.Idx → EReal) (V c main_arg4 : S128.Idx → EReal) :=
  (dat3 V c).arrAt_eq_of_cover 2 _ (fun t _ => written_block V c t) covered

end Cert.KernelIdeal.Rectify3

end
-- ==== Proof.Rectify5.lean ====
/-
  What the third bias-and-rectifier call leaves in its output array.

  The call is tiled over the rows: grid point `t` loads rows `5000·t … 5000·t + 4999` of the aggregated features and
  the whole bias vector, adds the bias to every row and takes the maximum with zero, and writes the `5000×128`
  block back at the same rows.  The value at `(i, j)` reads the features at `(i, j)` only, so each written block is
  that block of ONE whole-array function, and the ten blocks cover the array: after the call the output array is
  `(i, j) ↦ max (a (i, j) + b j, 0)` of the two arrays the call found, whatever they were.
-/
import proofs.«177400_j85727547228592_1_alg».proof.Proof.Gen.KernelIdeal.Frame
import proofs.«177400_j85727547228592_1_alg».proof.Proof.LibBiasRelu
import Idealize.ShloMosaic.Lib.Pipeline.Value
import Idealize.ShloMosaic.Lib.ValueIdx
import Idealize.ShloMosaic.Lib.ValueLayout

set_option maxRecDepth 16384

noncomputable section

namespace Cert.KernelIdeal.Rectify5

open Idealize.ShloMosaic Idealize.ShloMosaic.TcCoe Idealize.SL.Sem Idealize.ShloMosaic.ValueIdx
open Cert.KernelIdeal Cert.KernelIdeal.Gen Cert.Lib.BiasRelu

variable (V : (c : Dev nD) → (b : Ref sig .tc) → Buf (Elt Ideal) ((c : Thread nD τ).loc b))

theorem offset_zero2 : (![0, 0] : Fin 2 → Nat) = fun _ => 0 := funext fun a => by fin_cases a <;> rfl
theorem offset_zero1 : (![0] : Fin 1 → Nat) = fun _ => 0 := funext fun a => by fin_cases a; rfl

/-- The body's value is the bias added to each row of its loaded block and rectified. -/
theorem payload (x0 : Vec Ideal S5000x128 .f32) (x1 : Vec Ideal S128 .f32) :
    k5_pay1 x0 x1 = br (x0 : S5000x128.Idx → EReal) (x1 : S128.Idx → EReal) := by
  funext i
  obtain ⟨p, q, rfl⟩ : ∃ (p : Fin 5000) (q : Fin 128), i = ix2 p q := ⟨i 0, i 1, eq_ix2 i⟩
  unfold k5_pay1
  show max (shapeCast S5000x128 x0 shapeCasts_S5000x128_S5000x128 (ix2 p q)
      + broadcastTo S5000x128 (shapeCast S1x128 x1 shapeCasts_S128_S1x128) broadcasts_S1x128_S5000x128 (ix2 p q))
      (Ideal.ofBits .f32 0x00000000#32) = _
  rw [shapeCast_self, broadcastTo_1b_ab_apply, shapeCast_a_1a_apply]
  rfl

/-- The body's value at an index `j` of the block is the whole-array function at `z`, when `z` names the same
    column, the block at `j` is the array at `z`, and the bias block is the whole bias. -/
theorem point_value (x0 : Vec Ideal S5000x128 .f32) (x1 : Vec Ideal S128 .f32)
    (a : S50000x128.Idx → EReal) (b : S128.Idx → EReal) (j : S5000x128.Idx) (z : S50000x128.Idx)
    (h1 : (z 1).val = (j 1).val) (ha : x0 j = a z) (hb : ∀ y, x1 y = b y) :
    k5_pay1 x0 x1 j = br a b z := by
  have e : (x1 : S128.Idx → EReal) = b := funext hb
  subst e
  rw [payload]
  exact br_block a x0 x1 j z h1 ha

/-- The printed index maps over the ten grid points: the feature window moves with the output window along the
    rows, everything else stays at block zero. -/
theorem index_facts : ∀ t : Fin cfg5.N, win5_0.index t (0 : Fin 2) = win5_2.index t (0 : Fin 2)
    ∧ win5_0.index t (1 : Fin 2) = 0 ∧ win5_1.index t (0 : Fin 1) = 0
    ∧ win5_2.index t (1 : Fin 2) = 0 ∧ win5_2.index t (0 : Fin 2) ≤ 9 :=
  (by decide +kernel : ∀ t : Fin grid5.N, _)

/-- Every row block is some point's. -/
theorem index_onto : ∀ q : Fin 10, ∃ t : Fin cfg5.N, win5_2.index t = ![q.val, 0] :=
  (by decide +kernel : ∀ q : Fin 10, ∃ t : Fin grid5.N, win5_2.index t = ![q.val, 0])

/-- What point `t` writes back is block `t` of the rectified sum of the two arrays the call found. -/
theorem written_block (c : Dev nD) (t : Fin cfg5.N) :
    (dat5 V c).flushed 2 t = ((cfg5.win 2).blk t).view.read (Elt Ideal)
      (br (V c main_v73 : S50000x128.Idx → EReal) (V c main_arg6 : S128.Idx → EReal)) := by
  show (cfg5.win 2).cut (grid5.coords t) ((dat5 V c).after 2 t) = _
  rw [after5_2]
  unfold out5_2
  rw [View.canon_unit_zero offset_zero2]
  simp only [View.ld_unit_zero (S := S5000x128) offset_zero2, View.ld_unit_zero (S := S128) offset_zero1]
  obtain ⟨e0, e1, e2, e3, e4⟩ := index_facts t
  funext j
  refine point_value (iblk5 V c 0 t) (iblk5 V c 1 t) (V c main_v73) (V c main_arg6) j
    (((cfg5.win 2).blk t).view.emb j) ?_ ?_ ?_
  · show win5_2.index t (1 : Fin 2) * 128 + 1 * (j 1).val = (j 1).val
    omega
  · show V c main_v73 (((cfg5.win 0).blk t).view.emb j) = V c main_v73 (((cfg5.win 2).blk t).view.emb j)
    refine congrArg (V c main_v73) (funext fun a => Fin.ext ?_)
    match a with
    | ⟨0, _⟩ => show win5_0.index t (0 : Fin 2) * 5000 + 1 * (j 0).val = win5_2.index t (0 : Fin 2) * 5000 + 1 * (j 0).val; omega
    | ⟨1, _⟩ => show win5_0.index t (1 : Fin 2) * 128 + 1 * (j 1).val = win5_2.index t (1 : Fin 2) * 128 + 1 * (j 1).val; omega
  · intro y
    show V c main_arg6 (((cfg5.win 1).blk t).view.emb y) = V c main_arg6 y
    refine congrArg (V c main_arg6) (funext fun a => Fin.ext ?_)
    match a with
    | ⟨0, _⟩ => show win5_1.index t (0 : Fin 1) * 128 + 1 * (y 0).val = (y 0).val; omega

/-- An index of the array is in point `t`'s block iff each coordinate is in the block's range on its axis. -/
theorem mem_block (t : Fin cfg5.N) (i : S50000x128.Idx) :
    i ∈ ((cfg5.win 2).blk t).view.set ↔ ∀ a : Fin 2, win5_2.index t a * S5000x128.size a ≤ (i a).val ∧ (i a).val < win5_2.index t a * S5000x128.size a + S5000x128.size a := by
  show i ∈ ((View.whole main_v74).slice (win5_2.rect t)).set ↔ _
  rw [View.set_slice_whole, Rect.mem_set_unit]
  exact Iff.rfl

/-- Every index of the array lies in the block of the point that holds its row. -/
theorem covered (i : S50000x128.Idx) :
    ∃ t : Fin cfg5.N, (cfg5.win 2).flush t = true ∧ i ∈ ((cfg5.win 2).blk t).view.set := by
  have hi0 : (i 0).val < 50000 := (i 0).isLt
  have hi1 : (i 1).val < 128 := (i 1).isLt
  obtain ⟨t, ht⟩ := index_onto ⟨(i 0).val / 5000, by omega⟩
  have q0 : win5_2.index t (0 : Fin 2) = (i 0).val / 5000 := congrFun ht 0
  have q1 : win5_2.index t (1 : Fin 2) = 0 := congrFun ht 1
  refine ⟨t, flush5_2 t, ?_⟩
  rw [mem_block]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 128 ≤ (i 1).val ∧ (i 1).val < win5_2.index t (1 : Fin 2) * 128 + 128; omega

/-- After the call its output array is the rectified sum of the two arrays it found. -/
theorem array_after (c : Dev nD) :
    (dat5 V c).arrAt 2 cfg5.N = br (V c main_v73 : S50000x128.Idx → EReal) (V c main_arg6 : S128.Idx → EReal) :=
  (dat5 V c).arrAt_eq_of_cover 2 _ (fun t _ => written_block V c t) covered

end Cert.KernelIdeal.Rectify5

end
-- ==== Proof.Graph.lean ====
/-
  The graph-convolution network as one function of the argument arrays.

  From the edge list `e` (two rows of 600000 node numbers) the program forms the source and destination vectors with
  one self-loop per node appended (`src`, `dst`, 650000 entries each), the in-degree of every node as a sum of ones
  scattered at the destinations (`deg`), its inverse square root where the degree is positive and zero elsewhere
  (`dinv`), and the edge weight `norm = dinv[src] · dinv[dst]`.  One layer multiplies the node features by a weight
  matrix, gathers the product's rows at the sources, scales each gathered row by its edge weight, adds the rows up at
  the destinations (`agg`), adds the bias to every row and takes the maximum with zero.  The network is three layers.

  The index arithmetic (`wrap`: a negative node number is taken modulo the node count, as numpy indexing does), the
  gathers and the scatter-adds are the host operations of both programs, verbatim; nothing here looks inside them.
-/
import proofs.«177400_j85727547228592_1_alg».proof.Proof.Gen.ReferenceIdeal
import proofs.«177400_j85727547228592_1_alg».proof.Proof.LibPlainDot
import proofs.«177400_j85727547228592_1_alg».proof.Proof.LibBiasRelu

noncomputable section

namespace Cert.Graph

open Idealize.ShloMosaic Cert.ReferenceIdeal Cert.ReferenceIdeal.Facts₀ Cert.Lib.PlainDot Cert.Lib.BiasRelu

/-- The edges' sources followed by every node once (its self-loop). -/
def src (e : IVec S2x600000 32) : IVec S650000 32 :=
  concatenate S650000 0 [⟨S600000, (shapeCast _ (extractStridedSlice S1x600000 ![0, 0] e slices_S2x600000_S1x600000_0_0) shapeCasts_S1x600000_S600000)⟩, ⟨S50000, (iotaInDim S50000 32 0)⟩] concatenates_S600000_S50000_S650000_d0

/-- The edges' destinations followed by every node once. -/
def dst (e : IVec S2x600000 32) : IVec S650000 32 :=
  concatenate S650000 0 [⟨S600000, (shapeCast _ (extractStridedSlice S1x600000 ![1, 0] e slices_S2x600000_S1x600000_1_0) shapeCasts_S1x600000_S600000)⟩, ⟨S50000, (iotaInDim S50000 32 0)⟩] concatenates_S600000_S50000_S650000_d0

/-- A vector of node numbers as a one-column index matrix. -/
def col (v : IVec S650000 32) : IVec S650000x1 32 := broadcastInDim S650000x1 ![0] bcast_S650000_S650000x1_0 v

/-- Node numbers with a negative one shifted up by the node count, as a one-column index matrix. -/
def wrap (v : IVec S650000 32) : IVec S650000x1 32 :=
  broadcastInDim S650000x1 ![0] bcast_S650000_S650000x1_0 (select (cmpi .slt v (broadcastInDim S650000 ![] bcast_S_S650000 (constantI S_ 32 0#32))) (addi v (broadcastInDim S650000 ![] bcast_S_S650000 (constantI S_ 32 50000#32))) v)

/-- Ones added up at the destinations `d`. -/
def degOf (d : IVec S650000 32) : FVec Ideal S50000 .f32 :=
  Host.scatterAdd scatter_S50000_S650000x1_S650000_n_0_0_1 (broadcastInDim S50000 ![] bcast_S_S50000 (constant S_ .f32 0x00000000#32)) (col d) (broadcastInDim S650000 ![] bcast_S_S650000 (constant S_ .f32 0x3F800000#32))

/-- The scalar zero. -/
def zero0 : FVec Ideal S_ .f32 := constant S_ .f32 0x00000000#32

/-- Where `g` is greater than zero. -/
def positive (g : FVec Ideal S50000 .f32) : IVec S50000 1 :=
  cmpf (F := Ideal) .ogt g (broadcastInDim S50000 ![] bcast_S_S50000 (constant S_ .f32 0x00000000#32))

/-- The inverse square root of `g` where it is positive, zero elsewhere. -/
def dinvOf (g : FVec Ideal S50000 .f32) : FVec Ideal S50000 .f32 :=
  select (positive g) (Host.rsqrt g) (broadcastInDim S50000 ![] bcast_S_S50000 (id zero0))

/-- The product, per edge, of `v` at the edge's source `s` and at its destination `d`. -/
def normOf (v : FVec Ideal S50000 .f32) (s d : IVec S650000 32) : FVec Ideal S650000 .f32 :=
  mulf (Host.gather gather_S50000_S650000x1_S650000_n_0_n_n_0_1_1 v (wrap s)) (Host.gather gather_S50000_S650000x1_S650000_n_0_n_n_0_1_1 v (wrap d))

/-- The rows of `h` at the sources `s`, each scaled by its edge's weight `n`, added up at the destinations `d`. -/
def aggOf (h : FVec Ideal S50000x128 .f32) (s d : IVec S650000 32) (n : FVec Ideal S650000 .f32) : FVec Ideal S50000x128 .f32 :=
  Host.scatterAdd scatter_S50000x128_S650000x1_S650000x128_1_0_0_1 (broadcastInDim S50000x128 ![] bcast_S_S50000x128 (constant S_ .f32 0x00000000#32)) (col d) (mulf (Host.gather gather_S50000x128_S650000x1_S650000x128_1_0_n_n_0_1_1128 h (wrap s)) (broadcastInDim S650000x128 ![0, 1] bcast_S650000x1_S650000x128_0_1 (broadcastInDim S650000x1 ![0] bcast_S650000_S650000x1_0 n)))

/-- The in-degree of every node, self-loop included. -/
def deg (e : IVec S2x600000 32) : FVec Ideal S50000 .f32 := degOf (dst e)

/-- The inverse square root of the degree where it is positive, zero elsewhere. -/
def dinv (e : IVec S2x600000 32) : FVec Ideal S50000 .f32 := dinvOf (deg e)

/-- The weight of every edge: the product of the two end nodes' inverse root degrees. -/
def norm (e : IVec S2x600000 32) : FVec Ideal S650000 .f32 := normOf (dinv e) (src e) (dst e)

/-- Aggregation: the rows of `h` at the sources, each scaled by its edge weight, added up at the destinations. -/
def agg (e : IVec S2x600000 32) (h : FVec Ideal S50000x128 .f32) : FVec Ideal S50000x128 .f32 :=
  aggOf h (src e) (dst e) (norm e)

/-- One layer: transform, aggregate, add the bias, rectify. -/
def layer (e : IVec S2x600000 32) (x : FVec Ideal S50000x128 .f32) (w : FVec Ideal S128x128 .f32) (b : FVec Ideal S128 .f32) :
    FVec Ideal S50000x128 .f32 :=
  br (agg e (mm (x : S50000x128.Idx → EReal) (w : S128x128.Idx → EReal))) b

/-- The network: three layers. -/
def net (x : FVec Ideal S50000x128 .f32) (w1 : FVec Ideal S128x128 .f32) (b1 : FVec Ideal S128 .f32)
    (w2 : FVec Ideal S128x128 .f32) (b2 : FVec Ideal S128 .f32) (w3 : FVec Ideal S128x128 .f32) (b3 : FVec Ideal S128 .f32)
    (e : IVec S2x600000 32) : FVec Ideal S50000x128 .f32 :=
  layer e (layer e (layer e x w1 b1) w2 b2) w3 b3

/-- A layer as the host spells it: `dot_general`, the aggregation, the bias as a broadcast row, the maximum with a
    broadcast zero. -/
def hostLayer (e : IVec S2x600000 32) (x : FVec Ideal S50000x128 .f32) (w : FVec Ideal S128x128 .f32) (b : FVec Ideal S128 .f32) :
    FVec Ideal S50000x128 .f32 :=
  maximumf (addf (agg e (Host.dotGeneral dot_S50000x128_S128x128_S50000x128_1_0_0_1_n_n none x w)) (broadcastInDim S50000x128 ![0, 1] bcast_S1x128_S50000x128_0_1 (broadcastInDim S1x128 ![1] bcast_S128_S1x128_1 b))) (broadcastInDim S50000x128 ![] bcast_S_S50000x128 (constant S_ .f32 0x00000000#32))

/-- The host's dimension numbers are those of a plain matrix product. -/
theorem dims_plain : dot_S50000x128_S128x128_S50000x128_1_0_0_1_n_n = DotDims.plain 50000 128 128 := rfl

/-- The host's spelling of a layer is the layer. -/
theorem hostLayer_eq (e : IVec S2x600000 32) (x : FVec Ideal S50000x128 .f32) (w : FVec Ideal S128x128 .f32) (b : FVec Ideal S128 .f32) :
    hostLayer e x w b = layer e x w b := by
  unfold hostLayer layer
  rw [dims_plain, Cert.Lib.PlainDot.dotGeneral]
  exact host_spelling (M := 50000) (N := 128) ![0, 1] rfl rfl bcast_S1x128_S50000x128_0_1 ![1] rfl bcast_S128_S1x128_1 ![] bcast_S_S50000x128 _ b

end Cert.Graph

end
-- ==== Proof.KernelChain.lean ====
/-
  The kernel program's result as the network of its arguments.

  The program's run is a walk through twelve stretches: three stretches of host operations (the edge vectors, the
  degrees, the edge weights), then per layer a linear-transform call, a stretch of host operations (gather, scale,
  scatter-add) and a bias-and-rectifier call.  The buffer contents at every boundary are a fold from the launch
  memory.  Each host stretch is read once, from ANY contents it may start from: which buffer it leaves at which
  function of which buffers, and which buffers it leaves alone.  Walking the fold forward with these: the edge
  vectors and weights are computed once and no later stretch or call writes them; the arguments are never written;
  each call's output array is its function of the arrays it found; each aggregation stretch is the aggregation of
  the product before it.  So the last call's output array is three layers applied to the node features.
-/
import proofs.«177400_j85727547228592_1_alg».proof.Proof.Product0
import proofs.«177400_j85727547228592_1_alg».proof.Proof.Product2
import proofs.«177400_j85727547228592_1_alg».proof.Proof.Product4
import proofs.«177400_j85727547228592_1_alg».proof.Proof.Rectify1
import proofs.«177400_j85727547228592_1_alg».proof.Proof.Rectify3
import proofs.«177400_j85727547228592_1_alg».proof.Proof.Rectify5
import proofs.«177400_j85727547228592_1_alg».proof.Proof.Graph
import Idealize.ShloMosaic.Lib.StableHlo.Run

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen Cert.Lib.PlainDot Cert.Lib.BiasRelu Cert.Graph

/-- Finishes reading a fold inside the operand list of a concatenation, where a congruence cannot reach: each
    operation's result at its own buffer is its function's value, at another buffer what was there. -/
local macro "results_in_pairs" : tactic =>
  `(tactic| repeat (first
      | rw [nullary_result] | rw [unary_result] | rw [binary_result] | rw [reshape_result]
      | (rw [nullary_result_ne]; rotate_left; decide)
      | (rw [unary_result_ne]; rotate_left; decide)
      | (rw [binary_result_ne]; rotate_left; decide)
      | (rw [reshape_result_ne]; rotate_left; decide)))

/-! ## Each host stretch, from any contents `Wv` -/

section Stretches

variable (Wv : Valuation τ sig (Elt Ideal))

/-! The first stretch: the edge vectors, the degree's sign and inverse root. -/
theorem first_src : StableHlo.after hostOps0 Wv (Proc.devRef .tc main_v3) = src (Wv (Proc.devRef .tc main_arg7)) := by
  simp only [hostOps0]
  after_results_simp
  results_in_pairs
  rfl
theorem first_dst : StableHlo.after hostOps0 Wv (Proc.devRef .tc main_v6) = dst (Wv (Proc.devRef .tc main_arg7)) := by
  simp only [hostOps0]
  after_results_simp
  results_in_pairs
  rfl
theorem first_positive : StableHlo.after hostOps0 Wv (Proc.devRef .tc main_v12) = positive (deg (Wv (Proc.devRef .tc main_arg7))) := by
  simp only [hostOps0]
  after_results_simp
  results_in_pairs
  rfl
theorem first_rsqrt : StableHlo.after hostOps0 Wv (Proc.devRef .tc main_v13) = Host.rsqrt (deg (Wv (Proc.devRef .tc main_arg7))) := by
  simp only [hostOps0]
  after_results_simp
  results_in_pairs
  rfl
theorem first_zero : StableHlo.after hostOps0 Wv (Proc.devRef .tc main_cst_2) = zero0 := by
  simp only [hostOps0]
  after_results_simp
  rfl

/-! The second stretch (the selection): the inverse root degree where the degree is positive. -/
theorem second_dinv (g : FVec Ideal Cert.ReferenceIdeal.S50000 .f32) (hp : Wv (Proc.devRef .tc main_v12) = positive g)
    (hr : Wv (Proc.devRef .tc main_v13) = Host.rsqrt g) (hz : Wv (Proc.devRef .tc main_cst_2) = zero0) :
    StableHlo.after hostOps0_1 Wv (Proc.devRef .tc main_v14) = dinvOf g := by
  simp only [hostOps0_1]
  after_results_simp
  rw [hp, hr, hz]
  rfl
theorem second_keeps_v3 : StableHlo.after hostOps0_1 Wv (Proc.devRef .tc main_v3) = Wv (Proc.devRef .tc main_v3) := by
  simp only [hostOps0_1]
  after_results_simp <;> rfl
theorem second_keeps_v6 : StableHlo.after hostOps0_1 Wv (Proc.devRef .tc main_v6) = Wv (Proc.devRef .tc main_v6) := by
  simp only [hostOps0_1]
  after_results_simp <;> rfl

/-! The third stretch: the edge weights. -/
theorem third_norm : StableHlo.after hostOps0_2 Wv (Proc.devRef .tc main_v29) = normOf (Wv (Proc.devRef .tc main_v14)) (Wv (Proc.devRef .tc main_v3)) (Wv (Proc.devRef .tc main_v6)) := by
  simp only [hostOps0_2]
  after_results_simp
  rfl
theorem third_keeps_v3 : StableHlo.after hostOps0_2 Wv (Proc.devRef .tc main_v3) = Wv (Proc.devRef .tc main_v3) := by
  simp only [hostOps0_2]
  after_results_simp <;> rfl
theorem third_keeps_v6 : StableHlo.after hostOps0_2 Wv (Proc.devRef .tc main_v6) = Wv (Proc.devRef .tc main_v6) := by
  simp only [hostOps0_2]
  after_results_simp <;> rfl

/-- No operation before the first call writes an argument. -/
theorem before_keeps_arg0 : StableHlo.after hostOps0_2 (StableHlo.after hostOps0_1 (StableHlo.after hostOps0 Wv)) (Proc.devRef .tc main_arg0) = Wv (Proc.devRef .tc main_arg0) := by
  simp only [hostOps0, hostOps0_1, hostOps0_2]
  after_results_simp <;> rfl
theorem before_keeps_arg1 : StableHlo.after hostOps0_2 (StableHlo.after hostOps0_1 (StableHlo.after hostOps0 Wv)) (Proc.devRef .tc main_arg1) = Wv (Proc.devRef .tc main_arg1) := by
  simp only [hostOps0, hostOps0_1, hostOps0_2]
  after_results_simp <;> rfl
theorem before_keeps_arg2 : StableHlo.after hostOps0_2 (StableHlo.after hostOps0_1 (StableHlo.after hostOps0 Wv)) (Proc.devRef .tc main_arg2) = Wv (Proc.devRef .tc main_arg2) := by
  simp only [hostOps0, hostOps0_1, hostOps0_2]
  after_results_simp <;> rfl
theorem before_keeps_arg3 : StableHlo.after hostOps0_2 (StableHlo.after hostOps0_1 (StableHlo.after hostOps0 Wv)) (Proc.devRef .tc main_arg3) = Wv (Proc.devRef .tc main_arg3) := by
  simp only [hostOps0, hostOps0_1, hostOps0_2]
  after_results_simp <;> rfl
theorem before_keeps_arg4 : StableHlo.after hostOps0_2 (StableHlo.after hostOps0_1 (StableHlo.after hostOps0 Wv)) (Proc.devRef .tc main_arg4) = Wv (Proc.devRef .tc main_arg4) := by
  simp only [hostOps0, hostOps0_1, hostOps0_2]
  after_results_simp <;> rfl
theorem before_keeps_arg5 : StableHlo.after hostOps0_2 (StableHlo.after hostOps0_1 (StableHlo.after hostOps0 Wv)) (Proc.devRef .tc main_arg5) = Wv (Proc.devRef .tc main_arg5) := by
  simp only [hostOps0, hostOps0_1, hostOps0_2]
  after_results_simp <;> rfl
theorem before_keeps_arg6 : StableHlo.after hostOps0_2 (StableHlo.after hostOps0_1 (StableHlo.after hostOps0 Wv)) (Proc.devRef .tc main_arg6) = Wv (Proc.devRef .tc main_arg6) := by
  simp only [hostOps0, hostOps0_1, hostOps0_2]
  after_results_simp <;> rfl

/-! The aggregation stretches. -/
theorem agg1 : StableHlo.after hostOps1 Wv (Proc.devRef .tc main_v43) = aggOf (Wv (Proc.devRef .tc main_v30)) (Wv (Proc.devRef .tc main_v3)) (Wv (Proc.devRef .tc main_v6)) (Wv (Proc.devRef .tc main_v29)) := by
  simp only [hostOps1]
  after_results_simp
  rfl
theorem agg1_keeps_v3 : StableHlo.after hostOps1 Wv (Proc.devRef .tc main_v3) = Wv (Proc.devRef .tc main_v3) := by
  simp only [hostOps1]
  after_results_simp <;> rfl
theorem agg1_keeps_v6 : StableHlo.after hostOps1 Wv (Proc.devRef .tc main_v6) = Wv (Proc.devRef .tc main_v6) := by
  simp only [hostOps1]
  after_results_simp <;> rfl
theorem agg1_keeps_v29 : StableHlo.after hostOps1 Wv (Proc.devRef .tc main_v29) = Wv (Proc.devRef .tc main_v29) := by
  simp only [hostOps1]
  after_results_simp <;> rfl
theorem agg1_keeps_arg2 : StableHlo.after hostOps1 Wv (Proc.devRef .tc main_arg2) = Wv (Proc.devRef .tc main_arg2) := by
  simp only [hostOps1]
  after_results_simp <;> rfl
theorem agg1_keeps_arg3 : StableHlo.after hostOps1 Wv (Proc.devRef .tc main_arg3) = Wv (Proc.devRef .tc main_arg3) := by
  simp only [hostOps1]
  after_results_simp <;> rfl
theorem agg1_keeps_arg4 : StableHlo.after hostOps1 Wv (Proc.devRef .tc main_arg4) = Wv (Proc.devRef .tc main_arg4) := by
  simp only [hostOps1]
  after_results_simp <;> rfl
theorem agg1_keeps_arg5 : StableHlo.after hostOps1 Wv (Proc.devRef .tc main_arg5) = Wv (Proc.devRef .tc main_arg5) := by
  simp only [hostOps1]
  after_results_simp <;> rfl
theorem agg2 : StableHlo.after hostOps3 Wv (Proc.devRef .tc main_v58) = aggOf (Wv (Proc.devRef .tc main_v45)) (Wv (Proc.devRef .tc main_v3)) (Wv (Proc.devRef .tc main_v6)) (Wv (Proc.devRef .tc main_v29)) := by
  simp only [hostOps3]
  after_results_simp
  rfl
theorem agg2_keeps_v3 : StableHlo.after hostOps3 Wv (Proc.devRef .tc main_v3) = Wv (Proc.devRef .tc main_v3) := by
  simp only [hostOps3]
  after_results_simp <;> rfl
theorem agg2_keeps_v6 : StableHlo.after hostOps3 Wv (Proc.devRef .tc main_v6) = Wv (Proc.devRef .tc main_v6) := by
  simp only [hostOps3]
  after_results_simp <;> rfl
theorem agg2_keeps_v29 : StableHlo.after hostOps3 Wv (Proc.devRef .tc main_v29) = Wv (Proc.devRef .tc main_v29) := by
  simp only [hostOps3]
  after_results_simp <;> rfl
theorem agg2_keeps_arg4 : StableHlo.after hostOps3 Wv (Proc.devRef .tc main_arg4) = Wv (Proc.devRef .tc main_arg4) := by
  simp only [hostOps3]
  after_results_simp <;> rfl
theorem agg2_keeps_arg5 : StableHlo.after hostOps3 Wv (Proc.devRef .tc main_arg5) = Wv (Proc.devRef .tc main_arg5) := by
  simp only [hostOps3]
  after_results_simp <;> rfl
theorem agg3 : StableHlo.after hostOps5 Wv (Proc.devRef .tc main_v73) = aggOf (Wv (Proc.devRef .tc main_v60)) (Wv (Proc.devRef .tc main_v3)) (Wv (Proc.devRef .tc main_v6)) (Wv (Proc.devRef .tc main_v29)) := by
  simp only [hostOps5]
  after_results_simp
  rfl

end Stretches

variable (m : (ℓ : Loc nD τ sig) → Buf (Elt Ideal) ℓ) (ρ : Dev nD → PrngReg) (c : Dev nD)

/-! ## Before the first call: the edge vectors, the edge weights, the arguments -/

theorem src_at1 : W1 m ρ c (Proc.devRef .tc main_v3) = src (m ((c : Thread nD τ).loc main_arg7)) := first_src (W0 m ρ c)
theorem dst_at1 : W1 m ρ c (Proc.devRef .tc main_v6) = dst (m ((c : Thread nD τ).loc main_arg7)) := first_dst (W0 m ρ c)
theorem src_at2 : W2 m ρ c (Proc.devRef .tc main_v3) = src (m ((c : Thread nD τ).loc main_arg7)) := (second_keeps_v3 (W1 m ρ c)).trans (src_at1 m ρ c)
theorem dst_at2 : W2 m ρ c (Proc.devRef .tc main_v6) = dst (m ((c : Thread nD τ).loc main_arg7)) := (second_keeps_v6 (W1 m ρ c)).trans (dst_at1 m ρ c)
theorem dinv_at2 : W2 m ρ c (Proc.devRef .tc main_v14) = dinv (m ((c : Thread nD τ).loc main_arg7)) :=
  second_dinv (W1 m ρ c) (deg (m ((c : Thread nD τ).loc main_arg7))) (first_positive (W0 m ρ c)) (first_rsqrt (W0 m ρ c)) (first_zero (W0 m ρ c))
theorem entry_src : W3 m ρ c (Proc.devRef .tc main_v3) = src (m ((c : Thread nD τ).loc main_arg7)) := (third_keeps_v3 (W2 m ρ c)).trans (src_at2 m ρ c)
theorem entry_dst : W3 m ρ c (Proc.devRef .tc main_v6) = dst (m ((c : Thread nD τ).loc main_arg7)) := (third_keeps_v6 (W2 m ρ c)).trans (dst_at2 m ρ c)
theorem entry_norm : W3 m ρ c (Proc.devRef .tc main_v29) = norm (m ((c : Thread nD τ).loc main_arg7)) :=
  (third_norm (W2 m ρ c)).trans (by rw [dinv_at2 m ρ c, src_at2 m ρ c, dst_at2 m ρ c]; rfl)
theorem entry_arg0 : W3 m ρ c (Proc.devRef .tc main_arg0) = (m ((c : Thread nD τ).loc main_arg0)) := before_keeps_arg0 (W0 m ρ c)
theorem entry_arg1 : W3 m ρ c (Proc.devRef .tc main_arg1) = (m ((c : Thread nD τ).loc main_arg1)) := before_keeps_arg1 (W0 m ρ c)
theorem entry_arg2 : W3 m ρ c (Proc.devRef .tc main_arg2) = (m ((c : Thread nD τ).loc main_arg2)) := before_keeps_arg2 (W0 m ρ c)
theorem entry_arg3 : W3 m ρ c (Proc.devRef .tc main_arg3) = (m ((c : Thread nD τ).loc main_arg3)) := before_keeps_arg3 (W0 m ρ c)
theorem entry_arg4 : W3 m ρ c (Proc.devRef .tc main_arg4) = (m ((c : Thread nD τ).loc main_arg4)) := before_keeps_arg4 (W0 m ρ c)
theorem entry_arg5 : W3 m ρ c (Proc.devRef .tc main_arg5) = (m ((c : Thread nD τ).loc main_arg5)) := before_keeps_arg5 (W0 m ρ c)
theorem entry_arg6 : W3 m ρ c (Proc.devRef .tc main_arg6) = (m ((c : Thread nD τ).loc main_arg6)) := before_keeps_arg6 (W0 m ρ c)

/-! ## What the later stretches and calls leave alone -/

theorem src_at4 : W4 m ρ c (Proc.devRef .tc main_v3) = src (m ((c : Thread nD τ).loc main_arg7)) := (W4_of_ne m ρ c main_v3 (by decide)).trans (entry_src m ρ c)
theorem dst_at4 : W4 m ρ c (Proc.devRef .tc main_v6) = dst (m ((c : Thread nD τ).loc main_arg7)) := (W4_of_ne m ρ c main_v6 (by decide)).trans (entry_dst m ρ c)
theorem norm_at4 : W4 m ρ c (Proc.devRef .tc main_v29) = norm (m ((c : Thread nD τ).loc main_arg7)) := (W4_of_ne m ρ c main_v29 (by decide)).trans (entry_norm m ρ c)
theorem src_at7 : W7 m ρ c (Proc.devRef .tc main_v3) = src (m ((c : Thread nD τ).loc main_arg7)) :=
  (W7_of_ne m ρ c main_v3 (by decide)).trans ((W6_of_ne m ρ c main_v3 (by decide)).trans ((agg1_keeps_v3 (W4 m ρ c)).trans (src_at4 m ρ c)))
theorem src_at10 : W10 m ρ c (Proc.devRef .tc main_v3) = src (m ((c : Thread nD τ).loc main_arg7)) :=
  (W10_of_ne m ρ c main_v3 (by decide)).trans ((W9_of_ne m ρ c main_v3 (by decide)).trans ((agg2_keeps_v3 (W7 m ρ c)).trans (src_at7 m ρ c)))
theorem dst_at7 : W7 m ρ c (Proc.devRef .tc main_v6) = dst (m ((c : Thread nD τ).loc main_arg7)) :=
  (W7_of_ne m ρ c main_v6 (by decide)).trans ((W6_of_ne m ρ c main_v6 (by decide)).trans ((agg1_keeps_v6 (W4 m ρ c)).trans (dst_at4 m ρ c)))
theorem dst_at10 : W10 m ρ c (Proc.devRef .tc main_v6) = dst (m ((c : Thread nD τ).loc main_arg7)) :=
  (W10_of_ne m ρ c main_v6 (by decide)).trans ((W9_of_ne m ρ c main_v6 (by decide)).trans ((agg2_keeps_v6 (W7 m ρ c)).trans (dst_at7 m ρ c)))
theorem norm_at7 : W7 m ρ c (Proc.devRef .tc main_v29) = norm (m ((c : Thread nD τ).loc main_arg7)) :=
  (W7_of_ne m ρ c main_v29 (by decide)).trans ((W6_of_ne m ρ c main_v29 (by decide)).trans ((agg1_keeps_v29 (W4 m ρ c)).trans (norm_at4 m ρ c)))
theorem norm_at10 : W10 m ρ c (Proc.devRef .tc main_v29) = norm (m ((c : Thread nD τ).loc main_arg7)) :=
  (W10_of_ne m ρ c main_v29 (by decide)).trans ((W9_of_ne m ρ c main_v29 (by decide)).trans ((agg2_keeps_v29 (W7 m ρ c)).trans (norm_at7 m ρ c)))
theorem arg2_at5 : W5 m ρ c (Proc.devRef .tc main_arg2) = (m ((c : Thread nD τ).loc main_arg2)) :=
  (agg1_keeps_arg2 (W4 m ρ c)).trans ((W4_of_ne m ρ c main_arg2 (by decide)).trans (entry_arg2 m ρ c))
theorem arg3_at5 : W5 m ρ c (Proc.devRef .tc main_arg3) = (m ((c : Thread nD τ).loc main_arg3)) :=
  (agg1_keeps_arg3 (W4 m ρ c)).trans ((W4_of_ne m ρ c main_arg3 (by decide)).trans (entry_arg3 m ρ c))
theorem arg4_at5 : W5 m ρ c (Proc.devRef .tc main_arg4) = (m ((c : Thread nD τ).loc main_arg4)) :=
  (agg1_keeps_arg4 (W4 m ρ c)).trans ((W4_of_ne m ρ c main_arg4 (by decide)).trans (entry_arg4 m ρ c))
theorem arg5_at5 : W5 m ρ c (Proc.devRef .tc main_arg5) = (m ((c : Thread nD τ).loc main_arg5)) :=
  (agg1_keeps_arg5 (W4 m ρ c)).trans ((W4_of_ne m ρ c main_arg5 (by decide)).trans (entry_arg5 m ρ c))
theorem arg3_at6 : W6 m ρ c (Proc.devRef .tc main_arg3) = (m ((c : Thread nD τ).loc main_arg3)) := (W6_of_ne m ρ c main_arg3 (by decide)).trans (arg3_at5 m ρ c)
theorem arg4_at7 : W7 m ρ c (Proc.devRef .tc main_arg4) = (m ((c : Thread nD τ).loc main_arg4)) :=
  (W7_of_ne m ρ c main_arg4 (by decide)).trans ((W6_of_ne m ρ c main_arg4 (by decide)).trans (arg4_at5 m ρ c))
theorem arg5_at7 : W7 m ρ c (Proc.devRef .tc main_arg5) = (m ((c : Thread nD τ).loc main_arg5)) :=
  (W7_of_ne m ρ c main_arg5 (by decide)).trans ((W6_of_ne m ρ c main_arg5 (by decide)).trans (arg5_at5 m ρ c))
theorem arg4_at8 : W8 m ρ c (Proc.devRef .tc main_arg4) = (m ((c : Thread nD τ).loc main_arg4)) := (agg2_keeps_arg4 (W7 m ρ c)).trans (arg4_at7 m ρ c)
theorem arg5_at9 : W9 m ρ c (Proc.devRef .tc main_arg5) = (m ((c : Thread nD τ).loc main_arg5)) :=
  (W9_of_ne m ρ c main_arg5 (by decide)).trans ((agg2_keeps_arg5 (W7 m ρ c)).trans (arg5_at7 m ρ c))
/-- The last bias is read by the last call through an input window, which leaves it as entered; and it ends as launched. -/
theorem arg6_at11 : W11 m ρ c (Proc.devRef .tc main_arg6) = (m ((c : Thread nD τ).loc main_arg6)) :=
  ((W12_arr m ρ c 1).trans (((dat5 (V11 m ρ) c).arrAt_in 1 rfl _).trans (A_eq5 (V11 m ρ) c 1))).symm.trans (W12_main_arg6 m ρ c)

/-! ## The three layers -/

/-- After the first linear-transform call: the product of the features and the first weight matrix. -/
theorem product1 : W4 m ρ c (Proc.devRef .tc main_v30) = mm ((m ((c : Thread nD τ).loc main_arg0)) : S50000x128.Idx → EReal) ((m ((c : Thread nD τ).loc main_arg1)) : S128x128.Idx → EReal) :=
  (W4_arr m ρ c 2).trans ((Product0.array_after (V3 m ρ) c).trans (congrArg₂ mm (entry_arg0 m ρ c) (entry_arg1 m ρ c)))

/-- After the first aggregation stretch. -/
theorem aggregate1 : W5 m ρ c (Proc.devRef .tc main_v43) = agg (m ((c : Thread nD τ).loc main_arg7)) (mm ((m ((c : Thread nD τ).loc main_arg0)) : S50000x128.Idx → EReal) ((m ((c : Thread nD τ).loc main_arg1)) : S128x128.Idx → EReal)) :=
  (agg1 (W4 m ρ c)).trans (by rw [product1 m ρ c, src_at4 m ρ c, dst_at4 m ρ c, norm_at4 m ρ c]; rfl)

/-- After the first bias-and-rectifier call: the first layer. -/
theorem layer1 : W6 m ρ c (Proc.devRef .tc main_v44) = layer (m ((c : Thread nD τ).loc main_arg7)) (m ((c : Thread nD τ).loc main_arg0)) (m ((c : Thread nD τ).loc main_arg1)) (m ((c : Thread nD τ).loc main_arg2)) :=
  (W6_arr m ρ c 2).trans ((Rectify1.array_after (V5 m ρ) c).trans (congrArg₂ br (aggregate1 m ρ c) (arg2_at5 m ρ c)))

theorem product2 : W7 m ρ c (Proc.devRef .tc main_v45) = mm (layer (m ((c : Thread nD τ).loc main_arg7)) (m ((c : Thread nD τ).loc main_arg0)) (m ((c : Thread nD τ).loc main_arg1)) (m ((c : Thread nD τ).loc main_arg2)) : S50000x128.Idx → EReal) ((m ((c : Thread nD τ).loc main_arg3)) : S128x128.Idx → EReal) :=
  (W7_arr m ρ c 2).trans ((Product2.array_after (V6 m ρ) c).trans (congrArg₂ mm (layer1 m ρ c) (arg3_at6 m ρ c)))

theorem aggregate2 : W8 m ρ c (Proc.devRef .tc main_v58) = agg (m ((c : Thread nD τ).loc main_arg7)) (mm (layer (m ((c : Thread nD τ).loc main_arg7)) (m ((c : Thread nD τ).loc main_arg0)) (m ((c : Thread nD τ).loc main_arg1)) (m ((c : Thread nD τ).loc main_arg2)) : S50000x128.Idx → EReal) ((m ((c : Thread nD τ).loc main_arg3)) : S128x128.Idx → EReal)) :=
  (agg2 (W7 m ρ c)).trans (by rw [product2 m ρ c, src_at7 m ρ c, dst_at7 m ρ c, norm_at7 m ρ c]; rfl)

theorem layer2 : W9 m ρ c (Proc.devRef .tc main_v59) = layer (m ((c : Thread nD τ).loc main_arg7)) (layer (m ((c : Thread nD τ).loc main_arg7)) (m ((c : Thread nD τ).loc main_arg0)) (m ((c : Thread nD τ).loc main_arg1)) (m ((c : Thread nD τ).loc main_arg2))) (m ((c : Thread nD τ).loc main_arg3)) (m ((c : Thread nD τ).loc main_arg4)) :=
  (W9_arr m ρ c 2).trans ((Rectify3.array_after (V8 m ρ) c).trans (congrArg₂ br (aggregate2 m ρ c) (arg4_at8 m ρ c)))

theorem product3 : W10 m ρ c (Proc.devRef .tc main_v60) = mm (layer (m ((c : Thread nD τ).loc main_arg7)) (layer (m ((c : Thread nD τ).loc main_arg7)) (m ((c : Thread nD τ).loc main_arg0)) (m ((c : Thread nD τ).loc main_arg1)) (m ((c : Thread nD τ).loc main_arg2))) (m ((c : Thread nD τ).loc main_arg3)) (m ((c : Thread nD τ).loc main_arg4)) : S50000x128.Idx → EReal) ((m ((c : Thread nD τ).loc main_arg5)) : S128x128.Idx → EReal) :=
  (W10_arr m ρ c 2).trans ((Product4.array_after (V9 m ρ) c).trans (congrArg₂ mm (layer2 m ρ c) (arg5_at9 m ρ c)))

theorem aggregate3 : W11 m ρ c (Proc.devRef .tc main_v73) = agg (m ((c : Thread nD τ).loc main_arg7)) (mm (layer (m ((c : Thread nD τ).loc main_arg7)) (layer (m ((c : Thread nD τ).loc main_arg7)) (m ((c : Thread nD τ).loc main_arg0)) (m ((c : Thread nD τ).loc main_arg1)) (m ((c : Thread nD τ).loc main_arg2))) (m ((c : Thread nD τ).loc main_arg3)) (m ((c : Thread nD τ).loc main_arg4)) : S50000x128.Idx → EReal) ((m ((c : Thread nD τ).loc main_arg5)) : S128x128.Idx → EReal)) :=
  (agg3 (W10 m ρ c)).trans (by rw [product3 m ρ c, src_at10 m ρ c, dst_at10 m ρ c, norm_at10 m ρ c]; rfl)

/-- The result buffer at the last boundary is the network of the arguments. -/
theorem result : W12 m ρ c (Proc.devRef .tc main_v74) = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W12_arr m ρ c 2).trans ((Rectify5.array_after (V11 m ρ) c).trans (congrArg₂ br (aggregate3 m ρ c) (arg6_at11 m ρ c)))

end Cert.KernelIdeal.Chain

end
-- ==== Proof.KernelRun.lean ====
/-
  The kernel program's run with its result array named.

  Every weakly fair execution of the program on the TensorCores terminates without a fault; its last boundary's
  buffer contents are the fold `W12` of the stretches and calls from the launch memory, and reading the final memory
  against it gives the result buffer at `W12`'s contents there and every argument as launched.  The launch, the
  segments and the thread states are the generated frame's; only what is read off the last state differs.
-/
import proofs.«177400_j85727547228592_1_alg».proof.Proof.Gen.KernelIdeal.Frame

set_option maxRecDepth 16384

noncomputable section

namespace Cert.KernelIdeal.FinalMemory

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run : θ_run defs (onTc (τ := τ) (main (F := F))) ⟨m, fun _ => 0, ρ⟩ (fun r => ∀ c : Dev nD,
      r.2.mem ((c.tc : Thread nD τ).loc main_v74) = W12 m ρ c (Proc.devRef .tc main_v74)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v74 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.FinalMemory

end
-- ==== Proof.RefValue.lean ====
/-
  The reference program's result as the network of its arguments.

  The reference is one straight line of host operations; its run ends with the result at the operations' composed
  term of the arguments.  That term is, verbatim, three layers in the host's
  spelling (`dot_general`, the aggregation, the bias as a broadcast row, the maximum with a broadcast zero), and each
  host-spelled layer is the layer.
-/
import proofs.«177400_j85727547228592_1_alg».proof.Proof.RefRun
import proofs.«177400_j85727547228592_1_alg».proof.Proof.Graph

set_option maxRecDepth 16384

noncomputable section

namespace Cert.ReferenceIdeal.RefValue

open Idealize.ShloMosaic Idealize.ShloMosaic.TcCoe Idealize.SL.Sem
open Cert.ReferenceIdeal Cert.ReferenceIdeal.ValueP Cert.Graph

variable (m : (ℓ : Loc nD τ sig) → Buf (Elt Ideal) ℓ) (c : Dev nD)

/-- The run's result term is three host-spelled layers. -/
theorem result_hostLayers :
    res_main_v83 (F := Ideal) m c
      = hostLayer (m ((c.tc : Thread nD τ).loc main_arg7))
          (hostLayer (m ((c.tc : Thread nD τ).loc main_arg7))
            (hostLayer (m ((c.tc : Thread nD τ).loc main_arg7)) (m ((c.tc : Thread nD τ).loc main_arg0))
              (m ((c.tc : Thread nD τ).loc main_arg1)) (m ((c.tc : Thread nD τ).loc main_arg2)))
            (m ((c.tc : Thread nD τ).loc main_arg3)) (m ((c.tc : Thread nD τ).loc main_arg4)))
          (m ((c.tc : Thread nD τ).loc main_arg5)) (m ((c.tc : Thread nD τ).loc main_arg6)) := by
  unfold res_main_v83
  rfl

/-- The run's result is the network of the arguments. -/
theorem result_eq :
    res_main_v83 (F := Ideal) m c
      = net (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  rw [result_hostLayers]
  unfold net
  rw [hostLayer_eq, hostLayer_eq, hostLayer_eq]

end Cert.ReferenceIdeal.RefValue

end
-- ==== Proof.lean ====
/-
  A three-layer graph-convolution network (symmetric degree normalisation, self-loops) computed two ways is one
  function of its arguments over the extended reals.

  Both programs form, on the host, the edge vectors with self-loops, the in-degrees, their inverse square roots and
  the edge weights, and per layer gather the transformed features at the sources, scale them by the edge weights and
  add them up at the destinations — the same host operations in both.  They differ in who computes the dense parts:
  the kernel program runs the linear transform `x · W` and the epilogue `max (agg + b, 0)` as calls tiled over ten row
  blocks of 5000 nodes (the transform with its operands narrowed to bf16, which is the identity on extended reals, into
  a zero accumulator), where the reference uses one `dot_general`, a broadcast bias and a maximum with zero.

  A row of a matrix product reads only the same row of the left operand, and the epilogue at `(i, j)` reads its operand
  at `(i, j)` only; so every block a call writes is that block of one whole-array function, the ten blocks cover the
  array, and each call leaves in its output array the function the reference applies to whole arrays.  Walking the
  kernel program's stretches forward (nothing after the first stretch writes the edge vectors, the weights or the
  arguments) its result is three layers of the node features; the reference's result term is, verbatim, the same
  three layers in the host's spelling.  Sums are never reordered and no law that fails at an infinity is used, so
  the precondition (finite inputs) is not needed.

  The idealization rewrote nothing, so the kernel program's idealization claim is trivially true.
-/
import proofs.«177400_j85727547228592_1_alg».proof.Defs
import proofs.«177400_j85727547228592_1_alg».proof.Proof.Gen.Kernel
import proofs.«177400_j85727547228592_1_alg».proof.Proof.Gen.Kernel.Frame
import proofs.«177400_j85727547228592_1_alg».proof.Proof.Gen.KernelIdeal
import proofs.«177400_j85727547228592_1_alg».proof.Proof.Gen.KernelIdeal.Frame
import proofs.«177400_j85727547228592_1_alg».proof.Proof.Gen.ReferenceIdeal
import proofs.«177400_j85727547228592_1_alg».proof.Proof.Gen.Pre_finite_inputs
import proofs.«177400_j85727547228592_1_alg».proof.Proof.KernelChain
import proofs.«177400_j85727547228592_1_alg».proof.Proof.KernelRun
import proofs.«177400_j85727547228592_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no call: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end with the result at the network of the kernel program's arguments. -/
theorem algebraic : Cert.algebraic_KernelIdeal_ReferenceIdeal := by
  intro m ρ m' ρ' _ hagree
  refine ⟨fun c => Cert.Graph.net (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Chain.result m ρ c), (h c).2⟩)
      (Cert.KernelIdeal.FinalMemory.run (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.RefValue.result_eq m' c, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
